-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x16x2048x192 : Shape := ⟨4, ![2, 16, 2048, 192]⟩
abbrev S1x2x512x192 : Shape := ⟨4, ![1, 2, 512, 192]⟩
abbrev S1x2x2048x192 : Shape := ⟨4, ![1, 2, 2048, 192]⟩
abbrev S1x512x128 : Shape := ⟨3, ![1, 512, 128]⟩
abbrev S2x512x192 : Shape := ⟨3, ![2, 512, 192]⟩
abbrev S2x2048x192 : Shape := ⟨3, ![2, 2048, 192]⟩
abbrev S2x512x64 : Shape := ⟨3, ![2, 512, 64]⟩
abbrev S2x2048x64 : Shape := ⟨3, ![2, 2048, 64]⟩
abbrev S2x512x2048 : Shape := ⟨3, ![2, 512, 2048]⟩
abbrev S2x512 : Shape := ⟨2, ![2, 512]⟩
abbrev S2x512x1 : Shape := ⟨3, ![2, 512, 1]⟩
abbrev S512x2x64 : Shape := ⟨3, ![512, 2, 64]⟩
abbrev S512x128 : Shape := ⟨2, ![512, 128]⟩
abbrev S1x1024 : Shape := ⟨2, ![1, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x3072, .bf16⟩
  | .hbm, ⟨7, _⟩ => ⟨S2x16x2048x192, .bf16⟩
  | .hbm, ⟨8, _⟩ => ⟨S2x2048x1024, .bf16⟩
  | .hbm, ⟨9, _⟩ => ⟨S4096x1024, .bf16⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .f32⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x2x512x192, .bf16⟩
  | .local _ .vmem, ⟨7, _⟩ => ⟨S1x2x512x192, .bf16⟩
  | .local _ .vmem, ⟨8, _⟩ => ⟨S1x2x2048x192, .bf16⟩
  | .local _ .vmem, ⟨9, _⟩ => ⟨S1x2x2048x192, .bf16⟩
  | .local _ .vmem, ⟨10, _⟩ => ⟨S1x512x128, .bf16⟩
  | .local _ .vmem, ⟨11, _⟩ => ⟨S1x512x128, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024, .f32⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x512x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x2048x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x16x2048x192 : S4096x3072.ShapeCasts S2x16x2048x192
  inb_S1x2x512x192_S1x2x512x192_0_0_0_0 : ∀ a, (![0, 0, 0, 0] : Fin 4 → Nat) a + S1x2x512x192.size a ≤ S1x2x512x192.size a
  h_S1x2x512x192 : 0 < S1x2x512x192.numel
  shapeCasts_S1x2x512x192_S2x512x192 : S1x2x512x192.ShapeCasts S2x512x192
  inb_S1x2x2048x192_S1x2x2048x192_0_0_0_0 : ∀ a, (![0, 0, 0, 0] : Fin 4 → Nat) a + S1x2x2048x192.size a ≤ S1x2x2048x192.size a
  h_S1x2x2048x192 : 0 < S1x2x2048x192.numel
  shapeCasts_S1x2x2048x192_S2x2048x192 : S1x2x2048x192.ShapeCasts S2x2048x192
  slices_S2x512x192_o0_0_0_S2x512x64 : S2x512x192.Slices ![0, 0, 0] S2x512x64
  slices_S2x2048x192_o0_0_64_S2x2048x64 : S2x2048x192.Slices ![0, 0, 64] S2x2048x64
  slices_S2x2048x192_o0_0_128_S2x2048x64 : S2x2048x192.Slices ![0, 0, 128] S2x2048x64
  reduces_S2x512x2048_S2x512 : S2x512x2048.Reduces [2] S2x512
  shapeCasts_S2x512_S2x512x1 : S2x512.ShapeCasts S2x512x1
  broadcasts_S2x512x1_S2x512x2048 : S2x512x1.Broadcasts S2x512x2048
  transposes_S2x512x64_p1_0_2_S512x2x64 : S2x512x64.Transposes [1, 0, 2] S512x2x64
  shapeCasts_S512x2x64_S512x128 : S512x2x64.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S2x512x64_S2x2048x64_S2x512x2048_2_2_1_1_0_0_wf : DotDims.WF S2x512x64 S2x2048x64 S2x512x2048 [2] [2] [1] [1] [0] [0]
  dot_S2x512x2048_S2x2048x64_S2x512x64_2_1_1_2_0_0_wf : DotDims.WF S2x512x2048 S2x2048x64 S2x512x64 [2] [1] [1] [2] [0] [0]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .f32 = 32 ∨ (Rect.block (s := S3072x1024) S3072x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x512x192.size a ≤ S2x16x2048x192.size a
  hwx1_0 : ∀ i : grid1.Coords, EltTy.bits .bf16 = 32 ∨ (Rect.block (s := S2x16x2048x192) S1x2x512x192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x192.size a ≤ S2x16x2048x192.size a
  hwx1_1 : ∀ i : grid1.Coords, EltTy.bits .bf16 = 32 ∨ (Rect.block (s := S2x16x2048x192) S1x2x2048x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S2x2048x1024.size a
  hwx1_2 : ∀ i : grid1.Coords, EltTy.bits .bf16 = 32 ∨ (Rect.block (s := S2x2048x1024) S1x512x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S2x512x64_S2x2048x64_S2x512x2048_2_2_1_1_0_0 : DotDims S2x512x64 S2x2048x64 S2x512x2048 where
  lhsContracting := [2]
  rhsContracting := [2]
  lhsNonContracting := [1]
  rhsNonContracting := [1]
  lhsBatch := [0]
  rhsBatch := [0]
  wf := dot_S2x512x64_S2x2048x64_S2x512x2048_2_2_1_1_0_0_wf
def dot_S2x512x2048_S2x2048x64_S2x512x64_2_1_1_2_0_0 : DotDims S2x512x2048 S2x2048x64 S2x512x64 where
  lhsContracting := [2]
  rhsContracting := [1]
  lhsNonContracting := [1]
  rhsNonContracting := [2]
  lhsBatch := [0]
  rhsBatch := [0]
  wf := dot_S2x512x2048_S2x2048x64_S2x512x64_2_1_1_2_0_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x2x512x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2x2048x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x16x2048x192, .f32⟩
  | .hbm, ⟨10, _⟩ => ⟨S2x16x2048x64, .f32⟩
  | .hbm, ⟨11, _⟩ => ⟨S2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x16x2048x192 : S2x2048x3072.ShapeCasts S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.BitsRegion0.lean ====
/-
  Region 0 of the kernel's program (the projection to queries, keys and values) at entry contents `V`: what each
  window's block is, what the body leaves in the output window's buffer, and the body's obligation to the pipeline.
-/
import proofs.«165242_j64871186039330_2_alg».proof.Proof.Gen.Kernel.Launch
import proofs.«165242_j64871186039330_2_alg».proof.Proof.Gen.Kernel.Skeleton
import proofs.«165242_j64871186039330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: one linear layer, a block of 512 rows per grid point

Window 0 hands the body 512 rows of the input, windows 1 and 2 the whole weight matrix and the whole bias vector, and the
body leaves in window 3's buffer the 512 rows of the product plus the bias. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    kept it from the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    kept it from the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- Window 3's staging buffer after the body, from the input windows' blocks: one store of the whole block. -/
def out0_3 (x0 : Vec F S512x1024 .f32) (x1 : Vec F S3072x1024 .f32) (x2 : Vec F S3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs, the inputs' at contents `x0 x1 x2` and the output's at anything, runs to the
    continuation holding the inputs' as they were and the output's at `out0_3` of the inputs. -/
theorem sound_kernel0 (c : Dev nD) (E : Set ℕ) (i : grid0.Coords)
    (arg1 : Memref sig .tc .vmem S512x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Region 1 of the kernel's program (attention) at entry contents `V`: what each window's block is, what the body
  leaves in the output window's buffer, and the body's obligation to the pipeline.
-/
import proofs.«165242_j64871186039330_2_alg».proof.Proof.Gen.Kernel.Launch
import proofs.«165242_j64871186039330_2_alg».proof.Proof.Gen.Kernel.Skeleton
import proofs.«165242_j64871186039330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: attention, two heads and 512 query rows per grid point

Window 0 hands the body 512 query rows of a pair of heads, window 1 all 2048 key and value rows of the same pair (both
windows read the one array of projected rows), and the body leaves in window 2's buffer the 512 × 128 block of the
context: the two heads' outputs side by side. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    kept it from the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    kept it from the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_0 : Rect S1x2x512x192 := Rect.unit (s := S1x2x512x192) ![0, 0, 0, 0] S1x2x512x192.size inb_S1x2x512x192_S1x2x512x192_0_0_0_0
abbrev r1_1 : Rect S1x2x2048x192 := Rect.unit (s := S1x2x2048x192) ![0, 0, 0, 0] S1x2x2048x192.size inb_S1x2x2048x192_S1x2x2048x192_0_0_0_0
abbrev r1_2 : Rect S1x512x128 := Rect.unit (s := S1x512x128) ![0, 0, 0] S1x512x128.size inb_S1x512x128_S1x512x128_0_0_0

/-- Window 2's staging buffer after the body, from the input windows' blocks: one store of the whole block. -/
def out1_2 (x0 : Vec F S1x2x512x192 .bf16) (x1 : Vec F S1x2x2048x192 .bf16) : Vec F S1x512x128 .bf16 :=
  View.canon [⟨r1_2, k1_pay1 (View.ld x0 r1_0) (View.ld x1 r1_1)⟩]

/-- The one store covers the buffer. -/
theorem cover1_2 (p0 : Vec F S1x512x128 .bf16) (y : S1x512x128.Idx) :
    ∃ pc ∈ ([⟨r1_2, p0⟩] : List (View.Piece (Elt F) S1x512x128 .bf16)), y ∈ pc.1.set :=
  View.cover_of_tiled [⟨r1_2, p0⟩] S1x512x128.size (by rfl) y

set_option maxHeartbeats 1000000 in
/-- The body on whole staging memrefs, the inputs' at contents `x0 x1` and the output's at anything, runs to the
    continuation holding the inputs' as they were and the output's at `out1_2` of the inputs. -/
theorem sound_kernel1 (c : Dev nD) (E : Set ℕ) (i : grid1.Coords)
    (arg3 : Memref sig .tc .vmem S1x2x512x192 .bf16) (harg3 : arg3.IsWhole) (arg4 : Memref sig .tc .vmem S1x2x2048x192 .bf16) (harg4 : arg4.IsWhole)
    (arg5 : Memref sig .tc .vmem S1x512x128 .bf16) (harg5 : arg5.IsWhole)
    (x0 : Vec F S1x2x512x192 .bf16) (x1 : Vec F S1x2x2048x192 .bf16) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x0 x1)) -∗ K ⟨⟩))
      ⊢ wp frame (wpE (defs₀ (F := F)) Variants.none c none) E (cc1__flash_attn_pairs_kernel i arg3 harg3 arg4 harg4 arg5 harg5) K := by
  simp only [cc1__flash_attn_pairs_kernel_eq_skeleton]; unfold cc1__flash_attn_pairs_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the input blocks; nothing owed. The two input windows
    read ONE array, so each holds it at half the full share; the output window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2 of the kernel's program (the output projection) at entry contents `V`: what each window's block is, what
  the body leaves in the output window's buffer, and the body's obligation to the pipeline.
-/
import proofs.«165242_j64871186039330_2_alg».proof.Proof.Gen.Kernel.Launch
import proofs.«165242_j64871186039330_2_alg».proof.Proof.Gen.Kernel.Skeleton
import proofs.«165242_j64871186039330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: one linear layer, a block of 512 rows per grid point

Window 0 hands the body 512 rows of the input, windows 1 and 2 the whole weight matrix and the whole bias vector, and the
body leaves in window 3's buffer the 512 rows of the product plus the bias. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    kept it from the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    kept it from the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    kept it from the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each buffer whole. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S512x1024 := Rect.unit (s := S512x1024) ![0, 0] S512x1024.size inb_S512x1024_S512x1024_0_0

/-- Window 3's staging buffer after the body, from the input windows' blocks: one store of the whole block. -/
def out2_3 (x0 : Vec F S512x1024 .bf16) (x1 : Vec F S1024x1024 .f32) (x2 : Vec F S1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body on whole staging memrefs, the inputs' at contents `x0 x1 x2` and the output's at anything, runs to the
    continuation holding the inputs' as they were and the output's at `out2_3` of the inputs. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.lean ====
/-
  The run of the kernel's program: three pipelined regions among four reshapes. The buffer contents at each boundary are
  a fold from the launch memory — a reshape's result after a host stretch, a region's output array at what its
  write-backs leave —, each region is entered from the thread state "every unscoped buffer at the boundary's contents"
  and left at the next one, and at the end every unscoped buffer is read back at the last boundary's contents.
  Region 1 hands ONE array (the projected rows) to two input windows: the buffer's full share is dealt in halves at the
  region's entry and put together again at its exit.
-/
import proofs.«165242_j64871186039330_2_alg».proof.Proof.Gen.Kernel.Launch
import proofs.«165242_j64871186039330_2_alg».proof.Proof.Gen.Kernel.Skeleton
import proofs.«165242_j64871186039330_2_alg».proof.Proof.Gen.Kernel.Points
import proofs.«165242_j64871186039330_2_alg».proof.Proof.BitsRegion0
import proofs.«165242_j64871186039330_2_alg».proof.Proof.BitsRegion1
import proofs.«165242_j64871186039330_2_alg».proof.Proof.BitsRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: the context array at what the write-backs leave, every other buffer as entered. -/
def W4 (c : Dev nD) : Valuation τ sig (Elt F) :=
  Function.update (W3 m ρ c) (Proc.devRef .tc main_v3) ((dat1 (V3 m ρ) c).arrAt 2 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 2 cfg1.N := by
  unfold W4; exact Function.update_self _ _ _
theorem W4_of_ne (c : Dev nD) (b : Ref sig .tc) (hb : b ≠ main_v3) : W4 m ρ c (Proc.devRef .tc b) = W3 m ρ c (Proc.devRef .tc b) := by
  unfold W4; exact Function.update_of_ne (StableHlo.devRef_ne_of_ne hb) _ _

/-- After the third reshape (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what the program returns with. -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## Region 1's arrays: one buffer dealt to two windows -/

/-- ENTRY: the unscoped buffers at contents `V` are region 1's arrays — the projected rows at half the full share for each of
    the two input windows, the context array whole — and the unscoped rest. -/
theorem entry1 (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) := by
  have hA : Finset.univ.image (Pipeline.arrRef spec1) ⊆ Finset.univ.filter fun b : Ref sig .tc => ¬ b.isScoped := by decide
  have hL : ∀ Φ : Ref sig .tc → sProp 𝕄, bigSep (Finset.univ.image (Pipeline.arrRef spec1)) Φ = iprop(Φ main_v2 ∗ Φ main_v3) :=
    fun Φ => bigSep_eq_bigSepL_of_eq [main_v2, main_v3] (by decide) (by decide) Φ
  unfold unscopedBufs Pipeline.unscopedRest
  rw [BI.bigSep_sdiff_split hA]
  refine sep_mono ?_ .rfl
  rw [hL]
  unfold Dat.arrays
  rw [bigSep_W1, (arr_whole1 0).set_eq_univ, (arr_whole1 2).set_eq_univ]
  iintro ⟨H2, H3⟩
  ihave H2' := (pointsTo_share (PosShare.mem_left_op_right fullShare)).1 $$ H2
  icases H2' with ⟨Ha, Hb⟩
  isplitl [Ha]; · iexact Ha
  isplitl [Hb]; · iexact Hb
  iexact H3

/-- EXIT: region 1's arrays at their final contents and the unscoped rest are the unscoped buffers at any valuation that has
    the context array at its final contents and agrees with the entry contents elsewhere. -/
theorem exit1 (V V' : (c : Dev nD) → (b : Ref sig .tc) → Buf (Elt F) ((c : Thread nD τ).loc b)) (c : Dev nD)
    (hout : V' c main_v3 = (dat1 V c).arrAt 2 cfg1.N) (hrest : ∀ b, b ≠ main_v3 → V' c b = V c b) :
    iprop((dat1 V c).arrays ((dat1 V c).arrAt · cfg1.N) ∗ Pipeline.unscopedRest spec1 c (V c)) ⊢ (unscopedBufs c (V' c) : sProp 𝕄) := by
  have hA : Finset.univ.image (Pipeline.arrRef spec1) ⊆ Finset.univ.filter fun b : Ref sig .tc => ¬ b.isScoped := by decide
  have h3 : main_v3 ∈ Finset.univ.image (Pipeline.arrRef spec1) := by decide
  have hL : ∀ Φ : Ref sig .tc → sProp 𝕄, bigSep (Finset.univ.image (Pipeline.arrRef spec1)) Φ = iprop(Φ main_v2 ∗ Φ main_v3) :=
    fun Φ => bigSep_eq_bigSepL_of_eq [main_v2, main_v3] (by decide) (by decide) Φ
  unfold unscopedBufs Pipeline.unscopedRest
  rw [BI.bigSep_sdiff_split hA (Φ := fun b => (((c : Thread nD τ).loc b) ↦{fullShare} V' c b : sProp 𝕄)),
    show bigSep ((Finset.univ.filter fun b : Ref sig .tc => ¬ b.isScoped) \ Finset.univ.image (Pipeline.arrRef spec1))
        (fun b => (((c : Thread nD τ).loc b) ↦{fullShare} V' c b : sProp 𝕄))
      = bigSep ((Finset.univ.filter fun b : Ref sig .tc => ¬ b.isScoped) \ Finset.univ.image (Pipeline.arrRef spec1))
        (fun b => (((c : Thread nD τ).loc b) ↦{fullShare} V c b : sProp 𝕄)) from
      bigSep_congr fun b hb => by rw [hrest b (fun e => (Finset.mem_sdiff.mp hb).2 (e ▸ h3))]]
  refine sep_mono ?_ .rfl
  rw [hL]
  unfold Dat.arrays
  rw [bigSep_W1, (arr_whole1 0).set_eq_univ, (arr_whole1 2).set_eq_univ]
  beta_reduce
  rw [(dat1 V c).arrAt_in 0 rfl, (dat1 V c).arrAt_in 1 rfl, hrest main_v2 (by decide), hout]
  iintro ⟨Ha, Hb, H3⟩
  isplitl [Ha Hb]
  · iapply (pointsTo_share (PosShare.mem_left_op_right fullShare)).2
    isplitl [Ha]; · iexact Ha
    iexact Hb
  iexact H3

/-! ## The regions as segments -/

set_option backward.isDefEq.respectTransparency.types false in
/-- Region 0 over the thread state: entered from every unscoped buffer at `W1`, left at `W2`. Its arrays are
    split out of the unscoped buffers and put back at the exit contents; the generator register passes through the
    invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (F := F) (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V3 m ρ) (V4 m ρ) c (W4_out m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register passes through the
    invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.BitsFrame.lean ====
/-
  The frame of the kernel's program: after the run each argument array holds its launch contents. No reshape writes an
  argument and a region only reads one through an input window, so the fold of the boundary contents walks back to the
  launch memory at an argument's buffer.
-/
import proofs.«165242_j64871186039330_2_alg».proof.Proof.Gen.Kernel.Launch
import proofs.«165242_j64871186039330_2_alg».proof.Proof.Gen.Kernel.Skeleton
import proofs.«165242_j64871186039330_2_alg».proof.Proof.Gen.Kernel.Points
import proofs.«165242_j64871186039330_2_alg».proof.Proof.BitsRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A reshape leaves every buffer but its result as it was -/

theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_of (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W5_of (c : Dev nD) (b : Ref sig .tc) (hb : b ≠ main_v4) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W7_of (c : Dev nD) (b : Ref sig .tc) (hb : b ≠ main_v6) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments end as launched -/

/-- `main_arg0` reaches the end as launched: no reshape writes it, and a region only reads it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` reaches the end as launched: no reshape writes it, and a region only reads it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

/-- `main_arg2` reaches the end as launched: no reshape writes it, and a region only reads it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-- `main_arg3` reaches the end as launched: no reshape writes it, and a region only reads it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := (W6_arr m ρ c 1).trans (((dat2 (V5 m ρ) c).arrAt_in 1 rfl _).trans (A_eq2 (V5 m ρ) c 1))
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` reaches the end as launched: no reshape writes it, and a region only reads it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- THE FRAME: every weakly fair execution of the program terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩)
    (run_all m ρ)

end Cert.Kernel.Hand

end
-- ==== Proof.IdealRegion0.lean ====
/-
  Region 0 of the kernel's program (the projection to queries, keys and values) at entry contents `V`: what each
  window's block is, what the body leaves in the output window's buffer, and the body's obligation to the pipeline.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: one linear layer, a block of 512 rows per grid point

Window 0 hands the body 512 rows of the input, windows 1 and 2 the whole weight matrix and the whole bias vector, and the
body leaves in window 3's buffer the 512 rows of the product plus the bias. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    kept it from the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    kept it from the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    kept it from the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each buffer whole. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- Window 3's staging buffer after the body, from the input windows' blocks: one store of the whole block. -/
def out0_3 (x0 : Vec F S512x1024 .f32) (x1 : Vec F S3072x1024 .f32) (x2 : Vec F S3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging memrefs, the inputs' at contents `x0 x1 x2` and the output's at anything, runs to the
    continuation holding the inputs' as they were and the output's at `out0_3` of the inputs. -/
theorem sound_kernel0 (c : Dev nD) (E : Set ℕ) (i : grid0.Coords)
    (arg1 : Memref sig .tc .vmem S512x1024 .f32) (harg1 : arg1.IsWhole) (arg2 : Memref sig .tc .vmem S3072x1024 .f32) (harg2 : arg2.IsWhole)
    (arg3 : Memref sig .tc .vmem S3072 .f32) (harg3 : arg3.IsWhole) (arg4 : Memref sig .tc .vmem S512x3072 .bf16) (harg4 : arg4.IsWhole)
    (x0 : Vec F S512x1024 .f32) (x1 : Vec F S3072x1024 .f32) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1 of the kernel's program (attention) at entry contents `V`: what each window's block is, what the body
  leaves in the output window's buffer, and the body's obligation to the pipeline.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: attention, two heads and 512 query rows per grid point

Window 0 hands the body 512 query rows of a pair of heads, window 1 all 2048 key and value rows of the same pair (both
windows read the one array of projected rows), and the body leaves in window 2's buffer the 512 × 128 block of the
context: the two heads' outputs side by side. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    kept it from the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    kept it from the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each buffer whole. -/
abbrev r1_0 : Rect S1x2x512x192 := Rect.unit (s := S1x2x512x192) ![0, 0, 0, 0] S1x2x512x192.size inb_S1x2x512x192_S1x2x512x192_0_0_0_0
abbrev r1_1 : Rect S1x2x2048x192 := Rect.unit (s := S1x2x2048x192) ![0, 0, 0, 0] S1x2x2048x192.size inb_S1x2x2048x192_S1x2x2048x192_0_0_0_0
abbrev r1_2 : Rect S1x512x128 := Rect.unit (s := S1x512x128) ![0, 0, 0] S1x512x128.size inb_S1x512x128_S1x512x128_0_0_0

/-- Window 2's staging buffer after the body, from the input windows' blocks: one store of the whole block. -/
def out1_2 (x0 : Vec F S1x2x512x192 .bf16) (x1 : Vec F S1x2x2048x192 .bf16) : Vec F S1x512x128 .bf16 :=
  View.canon [⟨r1_2, k1_pay1 (View.ld x0 r1_0) (View.ld x1 r1_1)⟩]

/-- The one store covers the buffer. -/
theorem cover1_2 (p0 : Vec F S1x512x128 .bf16) (y : S1x512x128.Idx) :
    ∃ pc ∈ ([⟨r1_2, p0⟩] : List (View.Piece (Elt F) S1x512x128 .bf16)), y ∈ pc.1.set :=
  View.cover_of_tiled [⟨r1_2, p0⟩] S1x512x128.size (by rfl) y

set_option maxHeartbeats 1000000 in
/-- The body on whole staging memrefs, the inputs' at contents `x0 x1` and the output's at anything, runs to the
    continuation holding the inputs' as they were and the output's at `out1_2` of the inputs. -/
theorem sound_kernel1 (c : Dev nD) (E : Set ℕ) (i : grid1.Coords)
    (arg3 : Memref sig .tc .vmem S1x2x512x192 .bf16) (harg3 : arg3.IsWhole) (arg4 : Memref sig .tc .vmem S1x2x2048x192 .bf16) (harg4 : arg4.IsWhole)
    (arg5 : Memref sig .tc .vmem S1x512x128 .bf16) (harg5 : arg5.IsWhole)
    (x0 : Vec F S1x2x512x192 .bf16) (x1 : Vec F S1x2x2048x192 .bf16) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x0 x1)) -∗ K ⟨⟩))
      ⊢ wp frame (wpE (defs₀ (F := F)) Variants.none c none) E (cc1__flash_attn_pairs_kernel i arg3 harg3 arg4 harg4 arg5 harg5) K := by
  simp only [cc1__flash_attn_pairs_kernel_eq_skeleton]; unfold cc1__flash_attn_pairs_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the input blocks; nothing owed. The two input windows
    read ONE array, so each holds it at half the full share; the output window's array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2 of the kernel's program (the output projection) at entry contents `V`: what each window's block is, what
  the body leaves in the output window's buffer, and the body's obligation to the pipeline.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: one linear layer, a block of 512 rows per grid point

Window 0 hands the body 512 rows of the input, windows 1 and 2 the whole weight matrix and the whole bias vector, and the
body leaves in window 3's buffer the 512 rows of the product plus the bias. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    kept it from the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    kept it from the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    kept it from the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each buffer whole. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S512x1024 := Rect.unit (s := S512x1024) ![0, 0] S512x1024.size inb_S512x1024_S512x1024_0_0

/-- Window 3's staging buffer after the body, from the input windows' blocks: one store of the whole block. -/
def out2_3 (x0 : Vec F S512x1024 .bf16) (x1 : Vec F S1024x1024 .f32) (x2 : Vec F S1024 .f32) : Vec F S512x1024 .f32 :=
  View.canon [⟨r2_3, k2_pay1 (View.ld x0 r2_0) (View.ld x1 r2_1) (View.ld x2 r2_2)⟩]

/-- The one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body on whole staging memrefs, the inputs' at contents `x0 x1 x2` and the output's at anything, runs to the
    continuation holding the inputs' as they were and the output's at `out2_3` of the inputs. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.lean ====
/-
  The run of the kernel's program: three pipelined regions among four reshapes. The buffer contents at each boundary are
  a fold from the launch memory — a reshape's result after a host stretch, a region's output array at what its
  write-backs leave —, each region is entered from the thread state "every unscoped buffer at the boundary's contents"
  and left at the next one, and at the end every unscoped buffer is read back at the last boundary's contents.
  Region 1 hands ONE array (the projected rows) to two input windows: the buffer's full share is dealt in halves at the
  region's entry and put together again at its exit.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import proofs.«165242_j64871186039330_2_alg».proof.Proof.IdealRegion0
import proofs.«165242_j64871186039330_2_alg».proof.Proof.IdealRegion1
import proofs.«165242_j64871186039330_2_alg».proof.Proof.IdealRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: the context array at what the write-backs leave, every other buffer as entered. -/
def W4 (c : Dev nD) : Valuation τ sig (Elt F) :=
  Function.update (W3 m ρ c) (Proc.devRef .tc main_v3) ((dat1 (V3 m ρ) c).arrAt 2 cfg1.N)
abbrev V4 : (c : Dev nD) → (b : Ref sig .tc) → Buf (Elt F) ((c : Thread nD τ).loc b) := fun c b => W4 m ρ c b
theorem W4_out (c : Dev nD) : W4 m ρ c (Proc.devRef .tc main_v3) = (dat1 (V3 m ρ) c).arrAt 2 cfg1.N := by
  unfold W4; exact Function.update_self _ _ _
theorem W4_of_ne (c : Dev nD) (b : Ref sig .tc) (hb : b ≠ main_v3) : W4 m ρ c (Proc.devRef .tc b) = W3 m ρ c (Proc.devRef .tc b) := by
  unfold W4; exact Function.update_of_ne (StableHlo.devRef_ne_of_ne hb) _ _

/-- After the third reshape (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what the program returns with. -/
abbrev W7 : Dev nD → Valuation τ sig (Elt F) := fun c => StableHlo.after hostOps3 (W6 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

/-! ## Region 1's arrays: one buffer dealt to two windows -/

/-- ENTRY: the unscoped buffers at contents `V` are region 1's arrays — the projected rows at half the full share for each of
    the two input windows, the context array whole — and the unscoped rest. -/
theorem entry1 (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) := by
  have hA : Finset.univ.image (Pipeline.arrRef spec1) ⊆ Finset.univ.filter fun b : Ref sig .tc => ¬ b.isScoped := by decide
  have hL : ∀ Φ : Ref sig .tc → sProp 𝕄, bigSep (Finset.univ.image (Pipeline.arrRef spec1)) Φ = iprop(Φ main_v2 ∗ Φ main_v3) :=
    fun Φ => bigSep_eq_bigSepL_of_eq [main_v2, main_v3] (by decide) (by decide) Φ
  unfold unscopedBufs Pipeline.unscopedRest
  rw [BI.bigSep_sdiff_split hA]
  refine sep_mono ?_ .rfl
  rw [hL]
  unfold Dat.arrays
  rw [bigSep_W1, (arr_whole1 0).set_eq_univ, (arr_whole1 2).set_eq_univ]
  iintro ⟨H2, H3⟩
  ihave H2' := (pointsTo_share (PosShare.mem_left_op_right fullShare)).1 $$ H2
  icases H2' with ⟨Ha, Hb⟩
  isplitl [Ha]; · iexact Ha
  isplitl [Hb]; · iexact Hb
  iexact H3

/-- EXIT: region 1's arrays at their final contents and the unscoped rest are the unscoped buffers at any valuation that has
    the context array at its final contents and agrees with the entry contents elsewhere. -/
theorem exit1 (V V' : (c : Dev nD) → (b : Ref sig .tc) → Buf (Elt F) ((c : Thread nD τ).loc b)) (c : Dev nD)
    (hout : V' c main_v3 = (dat1 V c).arrAt 2 cfg1.N) (hrest : ∀ b, b ≠ main_v3 → V' c b = V c b) :
    iprop((dat1 V c).arrays ((dat1 V c).arrAt · cfg1.N) ∗ Pipeline.unscopedRest spec1 c (V c)) ⊢ (unscopedBufs c (V' c) : sProp 𝕄) := by
  have hA : Finset.univ.image (Pipeline.arrRef spec1) ⊆ Finset.univ.filter fun b : Ref sig .tc => ¬ b.isScoped := by decide
  have h3 : main_v3 ∈ Finset.univ.image (Pipeline.arrRef spec1) := by decide
  have hL : ∀ Φ : Ref sig .tc → sProp 𝕄, bigSep (Finset.univ.image (Pipeline.arrRef spec1)) Φ = iprop(Φ main_v2 ∗ Φ main_v3) :=
    fun Φ => bigSep_eq_bigSepL_of_eq [main_v2, main_v3] (by decide) (by decide) Φ
  unfold unscopedBufs Pipeline.unscopedRest
  rw [BI.bigSep_sdiff_split hA (Φ := fun b => (((c : Thread nD τ).loc b) ↦{fullShare} V' c b : sProp 𝕄)),
    show bigSep ((Finset.univ.filter fun b : Ref sig .tc => ¬ b.isScoped) \ Finset.univ.image (Pipeline.arrRef spec1))
        (fun b => (((c : Thread nD τ).loc b) ↦{fullShare} V' c b : sProp 𝕄))
      = bigSep ((Finset.univ.filter fun b : Ref sig .tc => ¬ b.isScoped) \ Finset.univ.image (Pipeline.arrRef spec1))
        (fun b => (((c : Thread nD τ).loc b) ↦{fullShare} V c b : sProp 𝕄)) from
      bigSep_congr fun b hb => by rw [hrest b (fun e => (Finset.mem_sdiff.mp hb).2 (e ▸ h3))]]
  refine sep_mono ?_ .rfl
  rw [hL]
  unfold Dat.arrays
  rw [bigSep_W1, (arr_whole1 0).set_eq_univ, (arr_whole1 2).set_eq_univ]
  beta_reduce
  rw [(dat1 V c).arrAt_in 0 rfl, (dat1 V c).arrAt_in 1 rfl, hrest main_v2 (by decide), hout]
  iintro ⟨Ha, Hb, H3⟩
  isplitl [Ha Hb]
  · iapply (pointsTo_share (PosShare.mem_left_op_right fullShare)).2
    isplitl [Ha]; · iexact Ha
    iexact Hb
  iexact H3

/-! ## The regions as segments -/

set_option backward.isDefEq.respectTransparency.types false in
/-- Region 0 over the thread state: entered from every unscoped buffer at `W1`, left at `W2`. Its arrays are
    split out of the unscoped buffers and put back at the exit contents; the generator register passes through the
    invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 (F := F) (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (F := F) (V3 m ρ) (V4 m ρ) c (W4_out m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register passes through the
    invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.IdealFrame.lean ====
/-
  The frame of the kernel's program: after the run each argument array holds its launch contents. No reshape writes an
  argument and a region only reads one through an input window, so the fold of the boundary contents walks back to the
  launch memory at an argument's buffer.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import proofs.«165242_j64871186039330_2_alg».proof.Proof.IdealRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A reshape leaves every buffer but its result as it was -/

theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W3_of (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W5_of (c : Dev nD) (b : Ref sig .tc) (hb : b ≠ main_v4) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W7_of (c : Dev nD) (b : Ref sig .tc) (hb : b ≠ main_v6) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-! ## The arguments end as launched -/

/-- `main_arg0` reaches the end as launched: no reshape writes it, and a region only reads it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` reaches the end as launched: no reshape writes it, and a region only reads it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

/-- `main_arg2` reaches the end as launched: no reshape writes it, and a region only reads it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-- `main_arg3` reaches the end as launched: no reshape writes it, and a region only reads it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := (W6_arr m ρ c 1).trans (((dat2 (V5 m ρ) c).arrAt_in 1 rfl _).trans (A_eq2 (V5 m ρ) c 1))
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` reaches the end as launched: no reshape writes it, and a region only reads it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- THE FRAME: every weakly fair execution of the program terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩)
    (run_all m ρ)

end Cert.KernelIdeal.Hand

end
-- ==== Proof.Spec.lean ====
/-
  The mathematics both programs compute, stated once over plain functions into the extended reals.

  A row of attention: from scores `s k` (k over the keys) and values `v k`, the softmax-weighted sum
  `∑ k, (exp (s k - M) / ∑ j, exp (s j - M)) * v k` with `M` the maximum of the scores (the fold of `max` from -∞).
  One output element of a head: the scores are the dot products of the query row with each key row, scaled by
  the word 0x3E000000 (the float 1/8 = 1/√64), the values one column of the value rows.
  A linear layer's element: `(∑ k, x k * w k) + b`.
-/
import Idealize.ShloMosaic.PureOps.Ideal
import Idealize.ShloMosaic.Lib.ValueIdx

noncomputable section

namespace Cert.Spec

open Idealize.ShloMosaic

/-- The maximum of a row of scores: `max` folded from -∞ (the word 0xFF800000). -/
def rowMax {n : Nat} (s : Fin n → EReal) : EReal :=
  (Finset.univ : Finset (Fin n)).fold max (Ideal.ofBits .f32 0xFF800000#32) s

/-- The softmax of the scores `s` applied to the values `v`. -/
def attend {n : Nat} (s v : Fin n → EReal) : EReal :=
  ∑ k : Fin n, Ideal.div (Ideal.exp (s k - rowMax s)) (∑ j : Fin n, Ideal.exp (s j - rowMax s)) * v k

/-- One element of one head's output: query row `q`, key rows `kr`, value column `vc`. -/
def headOut (q : Fin 64 → EReal) (kr : Fin 2048 → Fin 64 → EReal) (vc : Fin 2048 → EReal) : EReal :=
  attend (fun k => (∑ d : Fin 64, q d * kr k d) * Ideal.ofBits .f32 0x3E000000#32) vc

/-- One element of a linear layer: the row `x` against the weight row `w`, plus the bias `b`. -/
def affine (x w : Fin 1024 → EReal) (b : EReal) : EReal := (∑ k : Fin 1024, x k * w k) + b

end Cert.Spec

end
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.PayLinear.lean ====
/-
  The two linear kernels' stored values, read at an entry.

  Each multiplies a [512, 1024] block by a weight matrix kept in its [outputs, 1024] layout, row against row,
  into the zero accumulator, and adds the bias row broadcast over the 512 rows. On the extended reals the
  roundings to the narrow format are the identity, so entry (r, c) is (Σ_k x[r, k] · w[c, k]) + b[c].
-/
import proofs.«165242_j64871186039330_2_alg».proof.Proof.Gen.KernelIdeal.Skeleton
import proofs.«165242_j64871186039330_2_alg».proof.Proof.Spec
import proofs.«165242_j64871186039330_2_alg».proof.Proof.LibMatmulRowsByRows
import Idealize.ShloMosaic.Lib.ValueLayout
import Idealize.ShloMosaic.Lib.Pipeline.Value

noncomputable section

namespace Cert.KernelIdeal.Pay

open Idealize.ShloMosaic Idealize.ShloMosaic.ValueIdx Idealize.SL.Sem
open Cert.KernelIdeal Cert.KernelIdeal.Gen

/-- A row-against-row product into the zero accumulator plus a bias row broadcast over the rows, read at entry
    (r, c): the sum over the contracted axis of row r of the left operand times row c of the right, plus the
    bias at c. -/
theorem linear_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (lhs : FVec Ideal ⟨2, ![n, K]⟩ φ₁) (rhs : FVec Ideal ⟨2, ![d, K]⟩ φ₂) (b : FVec Ideal ⟨1, ![d]⟩ .f32)
    (hc : (⟨1, ![d]⟩ : Shape).ShapeCasts ⟨2, ![1, d]⟩) (hb : (⟨2, ![1, d]⟩ : Shape).Broadcasts ⟨2, ![n, d]⟩)
    (r : Fin n) (c : Fin d) :
    addf (FloatOps.matmul D none lhs rhs (constant (F := Ideal) ⟨2, ![n, d]⟩ .f32 0x00000000#32))
        (broadcastTo ⟨2, ![n, d]⟩ (shapeCast ⟨2, ![1, d]⟩ b hc) hb) (ix2 r c)
      = (∑ k : Fin K, lhs (ix2 r k) * rhs (ix2 c k)) + b (ix1 c) := by
  refine (addf_apply _ _ _).trans ?_
  refine congrArg₂ (· + ·) (Cert.Lib.MatmulRowsByRows.matmul_zero_at D hr hs hl0 hl1 hr0 hr1 none lhs rhs r c) ?_
  refine (broadcastTo_1b_ab_apply _ hb r c).trans ?_
  exact shapeCast_a_1a_apply b hc 0 c

/-- The first linear kernel's stored value at entry (r, c). -/
theorem pay0_apply (x0 : Vec Ideal S512x1024 .f32) (x1 : Vec Ideal S3072x1024 .f32) (x2 : Vec Ideal S3072 .f32)
    (r : Fin 512) (c : Fin 3072) :
    k0_pay1 (F := Ideal) x0 x1 x2 (ix2 r c)
      = Cert.Spec.affine (fun k => x0 (ix2 r k)) (fun k => x1 (ix2 c k)) (x2 (ix1 c)) := by
  unfold k0_pay1 Cert.Spec.affine
  refine (linear_at dot_S512x1024_S3072x1024_S512x3072_1_1_0_0_n_n rfl rfl
    (fun _ _ => rfl) (fun j q => DotDims.lhsIdx_val_of_single _ rfl j q)
    (fun _ _ => rfl) (fun j q => DotDims.rhsIdx_val_of_single _ rfl j q)
    _ _ x2 _ _ r c).trans ?_
  rw [shapeCast_self]
  rfl

/-- The second linear kernel's stored value at entry (r, c). -/
theorem pay2_apply (x0 : Vec Ideal S512x1024 .bf16) (x1 : Vec Ideal S1024x1024 .f32) (x2 : Vec Ideal S1024 .f32)
    (r : Fin 512) (c : Fin 1024) :
    k2_pay1 (F := Ideal) x0 x1 x2 (ix2 r c)
      = Cert.Spec.affine (fun k => x0 (ix2 r k)) (fun k => x1 (ix2 c k)) (x2 (ix1 c)) := by
  unfold k2_pay1 Cert.Spec.affine
  refine (linear_at dot_S512x1024_S1024x1024_S512x1024_1_1_0_0_n_n rfl rfl
    (fun _ _ => rfl) (fun j q => DotDims.lhsIdx_val_of_single _ rfl j q)
    (fun _ _ => rfl) (fun j q => DotDims.rhsIdx_val_of_single _ rfl j q)
    _ _ x2 _ _ r c).trans ?_
  rw [shapeCast_self]
  rfl

end Cert.KernelIdeal.Pay

end
-- ==== Proof.SpecArrays.lean ====
/-
  The three arrays the kernel's program computes one after another, each as one function of the arrays before it:
  the projected rows (a linear layer over 4096 rows), the context (attention, head by head), the output rows.
-/
import proofs.«165242_j64871186039330_2_alg».proof.Proof.Spec

noncomputable section

namespace Cert.Spec

open Idealize.ShloMosaic Idealize.ShloMosaic.ValueIdx

/-- A linear layer over the rows of `x`: entry (r, c) is row r of `x` against row c of `w`, plus `b c`. -/
def linearRows {n d : Nat} (x : (⟨2, ![n, 1024]⟩ : Shape).Idx → EReal) (w : (⟨2, ![d, 1024]⟩ : Shape).Idx → EReal)
    (b : (⟨1, ![d]⟩ : Shape).Idx → EReal) : (⟨2, ![n, d]⟩ : Shape).Idx → EReal :=
  fun i => affine (fun k => x (ix2 (i 0) k)) (fun k => w (ix2 (i 1) k)) (b (ix1 (i 1)))

/-- The head of context column `e`. -/
def headOf (e : Fin 1024) : Fin 16 := ⟨e.val / 64, by have := e.isLt; omega⟩
/-- A lane of a head's queries, keys (offset 64) and values (offset 128) among the 192 columns of its rows. -/
def qLane (d : Fin 64) : Fin 192 := ⟨d.val, by have := d.isLt; omega⟩
def kLane (d : Fin 64) : Fin 192 := ⟨64 + d.val, by have := d.isLt; omega⟩
def vLane (e : Fin 1024) : Fin 192 := ⟨128 + e.val % 64, by omega⟩

/-- The context: entry (b, i, e) is query row i of head e / 64 of batch b attending to that head's 2048 key rows, applied to
    lane e % 64 of its value rows. `q4` holds, per batch and head, 2048 rows of 192 columns: queries, keys, values. -/
def context (q4 : (⟨4, ![2, 16, 2048, 192]⟩ : Shape).Idx → EReal) : (⟨3, ![2, 2048, 1024]⟩ : Shape).Idx → EReal :=
  fun i => headOut (fun d' => q4 (ix4 (i 0) (headOf (i 2)) (i 1) (qLane d')))
    (fun k d' => q4 (ix4 (i 0) (headOf (i 2)) k (kLane d')))
    (fun k => q4 (ix4 (i 0) (headOf (i 2)) k (vLane (i 2))))

end Cert.Spec

end
-- ==== Proof.IdealFinal0.lean ====
/-
  Region 0, from blocks to the array: after the eight grid points the output array holds, entry by entry, the
  linear layer of the input rows. Point t writes rows 512·t .. 512·t + 511; its input block is the same rows of
  the input, and the weight matrix and the bias are read whole.
-/
import proofs.«165242_j64871186039330_2_alg».proof.Proof.IdealRegion0
import proofs.«165242_j64871186039330_2_alg».proof.Proof.PayLinear
import proofs.«165242_j64871186039330_2_alg».proof.Proof.SpecArrays
import Idealize.ShloMosaic.Lib.Pipeline.Value

noncomputable section

namespace Cert.KernelIdeal.Val

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- The printed index maps over the grid: the input block moves with the output block along the rows, every other
    block index is 0, and the output's row block at point t is t. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_3.index t (0 : Fin 2) = t.val ∧ t.val < 8 :=
  (by decide +kernel : ∀ t : Fin grid0.N, _)

/-- Every row block is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- The input block at point t, row r, is row 512·t + r of the input. -/
theorem blk0_0 (c : Dev nD) (t : Fin cfg0.N) (r : Fin 512) (k : Fin 1024) (q : Fin 4096)
    (hq : q.val = t.val * 512 + r.val) : iblk0 V c 0 t (ix2 r k) = V c main_v0 (ix2 q k) := by
  obtain ⟨e0, e1, e2, e3, e4, e5, e6, e7⟩ := idx_facts0 t
  show V c main_v0 (((cfg0.win 0).blk t).view.emb (ix2 r k)) = _
  refine congrArg (V c main_v0) (funext fun a => Fin.ext ?_)
  match a with
  | ⟨0, _⟩ => show win0_0.index t (0 : Fin 2) * 512 + 1 * r.val = q.val; omega
  | ⟨1, _⟩ => show win0_0.index t (1 : Fin 2) * 1024 + 1 * k.val = k.val; omega

/-- The weight block is the weight matrix. -/
theorem blk0_1 (c : Dev nD) (t : Fin cfg0.N) (n : Fin 3072) (k : Fin 1024) :
    iblk0 V c 1 t (ix2 n k) = V c main_arg1 (ix2 n k) := by
  obtain ⟨e0, e1, e2, e3, e4, e5, e6, e7⟩ := idx_facts0 t
  show V c main_arg1 (((cfg0.win 1).blk t).view.emb (ix2 n k)) = _
  refine congrArg (V c main_arg1) (funext fun a => Fin.ext ?_)
  match a with
  | ⟨0, _⟩ => show win0_1.index t (0 : Fin 2) * 3072 + 1 * n.val = n.val; omega
  | ⟨1, _⟩ => show win0_1.index t (1 : Fin 2) * 1024 + 1 * k.val = k.val; omega

/-- The bias block is the bias vector. -/
theorem blk0_2 (c : Dev nD) (t : Fin cfg0.N) (n : Fin 3072) :
    iblk0 V c 2 t (ix1 n) = V c main_arg2 (ix1 n) := by
  obtain ⟨e0, e1, e2, e3, e4, e5, e6, e7⟩ := idx_facts0 t
  show V c main_arg2 (((cfg0.win 2).blk t).view.emb (ix1 n)) = _
  refine congrArg (V c main_arg2) (funext fun a => Fin.ext ?_)
  match a with
  | ⟨0, _⟩ => show win0_2.index t (0 : Fin 1) * 3072 + 1 * n.val = n.val; omega

/-- The output block at point t, entry (r, n), is entry (512·t + r, n) of the output array. -/
theorem emb0_3 (t : Fin cfg0.N) (r : Fin 512) (n : Fin 3072) (q : Fin 4096) (hq : q.val = t.val * 512 + r.val) :
    ((cfg0.win 3).blk t).view.emb (ix2 r n) = ix2 q n := by
  obtain ⟨e0, e1, e2, e3, e4, e5, e6, e7⟩ := idx_facts0 t
  refine funext fun a => Fin.ext ?_
  match a with
  | ⟨0, _⟩ => show win0_3.index t (0 : Fin 2) * 512 + 1 * r.val = q.val; omega
  | ⟨1, _⟩ => show win0_3.index t (1 : Fin 2) * 3072 + 1 * n.val = n.val; omega

/-- What point t writes back is block t of the linear layer of the arrays as the region finds them. -/
theorem flushed0_eq (c : Dev nD) (t : Fin cfg0.N) :
    (dat0 V c).flushed 3 t = ((cfg0.win 3).blk t).view.read (Elt Ideal)
      (Cert.Spec.linearRows (V c main_v0) (V c main_arg1) (V c main_arg2)) := by
  show (cfg0.win 3).cut (grid0.coords t) ((dat0 V c).after 3 t) = _
  rw [after0_3]
  unfold out0_3
  rw [View.canon_unit_zero hz0_2]
  simp only [View.ld_unit_zero (S := S512x1024) hz0_2, View.ld_unit_zero (S := S3072x1024) hz0_2,
    View.ld_unit_zero (S := S3072) hz0_1]
  funext j
  obtain ⟨e0, e1, e2, e3, e4, e5, e6, e7⟩ := idx_facts0 t
  revert j
  show ∀ j : S512x3072.Idx, k0_pay1 (F := Ideal) (iblk0 V c 0 t) (iblk0 V c 1 t) (iblk0 V c 2 t) j
    = Cert.Spec.linearRows (V c main_v0) (V c main_arg1) (V c main_arg2) (((cfg0.win 3).blk t).view.emb j)
  intro j
  obtain ⟨r, n, rfl⟩ : ∃ (r : Fin 512) (n : Fin 3072), j = ix2 r n := ⟨j 0, j 1, eq_ix2 j⟩
  have hr : r.val < 512 := r.isLt
  rw [emb0_3 t r n ⟨t.val * 512 + r.val, by omega⟩ rfl]
  refine (pay0_apply _ _ _ r n).trans ?_
  show _ = Cert.Spec.affine (fun k => V c main_v0 (ix2 (⟨t.val * 512 + r.val, by omega⟩ : Fin 4096) k))
    (fun k => V c main_arg1 (ix2 n k)) (V c main_arg2 (ix1 n))
  refine congr (congrArg₂ Cert.Spec.affine (funext fun k => blk0_0 V c t r k _ rfl) (funext fun k => blk0_1 V c t n k)) (blk0_2 V c t n)

/-- An index of the array is in point t's block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v1).slice (win0_3.rect t)).set ↔ _
  rw [View.set_slice_whole, Rect.mem_set_unit]
  exact Iff.rfl

/-- Every index of the output array is in some point's block: row i is in block i / 512. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The output array after the region: the linear layer of the input rows, the weight matrix and the bias as the
    region finds them. -/
theorem final0 (c : Dev nD) :
    (dat0 (F := Ideal) V c).arrAt 3 cfg0.N = Cert.Spec.linearRows (V c main_v0) (V c main_arg1) (V c main_arg2) :=
  (dat0 V c).arrAt_eq_of_cover 3 (Cert.Spec.linearRows (V c main_v0) (V c main_arg1) (V c main_arg2))
    (fun t _ => flushed0_eq V c t) (fun i => cover0 i)

end Cert.KernelIdeal.Val

end
-- ==== Proof.LibTrailingSplit.lean ====
/-
  Three general facts about blocks of rows, for any sizes.

  * A trailing axis of extent `n = a·b` read as two axes `[a, b]` (a shape cast `[m, n] → [m, a, b]`), and the
    two axes merged back (`[m, a, b] → [m, n]`): a shape cast keeps an element's row-major position, so entry
    `(r, p, q)` of the split array is entry `(r, p·b + q)` of the flat one, and conversely.
  * A reduction over the LAST axis of a rank-3 block, kept as a rank-2 array: at `(r, d)` the `<add>` one is the
    sum over `e` of the source at `(r, d, e)`, the `<maximumf>` one the fold of `max` from the accumulator's
    value over the same entries.
  * A matrix product into the zero accumulator whose dimension numbers contract ONE axis of extent `K`, read at
    an output index: the sum over `k : Fin K` of the left operand at `li k` times the right at `ri k`, for any
    index functions `li`, `ri` that agree with the dimension record's index maps (whatever the batch and free
    axes are: the caller says where the product reads).
-/
import Idealize.ShloMosaic.Lib.Pipeline.Value
import Idealize.ShloMosaic.Lib.ValueIdx
import Idealize.ShloMosaic.PureOps.Ideal.Laws

noncomputable section

namespace Cert.Lib.TrailingSplit

open Idealize.ShloMosaic Idealize.ShloMosaic.ValueIdx

variable {α : Type}

/-- An `[m, n]` array with `n = a·b` cast to `[m, a, b]` reads, at `(r, p, q)`, the operand at `(r, p·b + q)`. -/
theorem shapeCast_mn_mab_apply {m n a b : ℕ} (hn : n = a * b) (x : (⟨2, ![m, n]⟩ : Shape).Idx → α)
    (h : (⟨2, ![m, n]⟩ : Shape).ShapeCasts ⟨3, ![m, a, b]⟩) (r : Fin m) (p : Fin a) (q : Fin b) (k : Fin n)
    (hk : k.val = p.val * b + q.val) :
    shapeCast ⟨3, ![m, a, b]⟩ x h (ix3 r p q) = x (ix2 r k) :=
  shapeCast_apply x h _ _ (by
    rw [Shape.rowMajor_val_two, Shape.rowMajor_val_three]
    show r.val * n + k.val = (r.val * a + p.val) * b + q.val
    rw [hk, hn, Nat.add_mul, Nat.mul_assoc, Nat.add_assoc])

/-- An `[m, a, b]` array cast to `[m, n]` with `n = a·b` reads, at `(r, p·b + q)`, the operand at `(r, p, q)`. -/
theorem shapeCast_mab_mn_apply {m n a b : ℕ} (hn : n = a * b) (x : (⟨3, ![m, a, b]⟩ : Shape).Idx → α)
    (h : (⟨3, ![m, a, b]⟩ : Shape).ShapeCasts ⟨2, ![m, n]⟩) (r : Fin m) (p : Fin a) (q : Fin b) (k : Fin n)
    (hk : k.val = p.val * b + q.val) :
    shapeCast ⟨2, ![m, n]⟩ x h (ix2 r k) = x (ix3 r p q) :=
  shapeCast_apply x h _ _ (by
    rw [Shape.rowMajor_val_two, Shape.rowMajor_val_three]
    show (r.val * a + p.val) * b + q.val = r.val * n + k.val
    rw [hk, hn, Nat.add_mul, Nat.mul_assoc, Nat.add_assoc])

/-- The index a reduction over the last axis of `[m, a, b]` reads: `(r, d)` with `e` inserted is `(r, d, e)`. -/
theorem lift_last {m a b : ℕ} (h : (⟨3, ![m, a, b]⟩ : Shape).Reduces [2] ⟨2, ![m, a]⟩) (r : Fin m) (d : Fin a) (e : Fin b) :
    h.lift (ix2 r d) e = ix3 r d e :=
  funext fun c => Fin.ext (by
    match c with
    | ⟨0, _⟩ => rfl
    | ⟨1, _⟩ => rfl
    | ⟨2, _⟩ => rfl)

/-- A `<add>` reduction over the last axis of a rank-3 block, at `(r, d)`: the sum over `e` of the source at
    `(r, d, e)`. -/
theorem rowSum_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (r : Fin m) (d : Fin a) :
    multiReduction .add [2] ⟨2, ![m, a]⟩ src acc h hφ hacc (ix2 r d) = ∑ e : Fin b, src (ix3 r d e) := by
  rw [Ideal.multiReduction_add_single]
  exact Finset.sum_congr rfl fun e _ => congrArg src (lift_last h r d e)

/-- A `<maximumf>` reduction over the last axis of a rank-3 block, at `(r, d)`: the fold of `max`, from the
    accumulator's value, over the source's entries `(r, d, e)`. -/
theorem rowMax_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (r : Fin m) (d : Fin a) :
    multiReduction .maximumf [2] ⟨2, ![m, a]⟩ src acc h hφ hacc (ix2 r d)
      = (Finset.univ : Finset (Fin b)).fold max (Ideal.ofBits φ acc) (fun e => src (ix3 r d e)) := by
  rw [Ideal.multiReduction_maximumf_single]
  exact congrArg (Finset.fold max (Ideal.ofBits φ acc) · (Finset.univ : Finset (Fin b)))
    (funext fun e => congrArg src (lift_last h r d e))

/-- A matrix product into the zero accumulator, one axis of extent `K` contracted, read at the output index `j`:
    the sum over `k : Fin K` of the operands' products at the indices the dimension record names. -/
theorem matmul_zero_sum {sl sr so : Shape} {φ₁ φ₂ : FTy} (D : DotDims sl sr so) (K : ℕ)
    (hr : D.contr.rank = 1) (hs : D.contr.size ⟨0, by omega⟩ = K) (prec : Option ContractPrecision)
    (lhs : FVec Ideal sl φ₁) (rhs : FVec Ideal sr φ₂) (j : so.Idx) (li : Fin K → sl.Idx) (ri : Fin K → sr.Idx)
    (hl : ∀ (k : Fin K) (q : D.contr.Idx), (q ⟨0, by omega⟩).val = k.val → D.lhsIdx j q = li k)
    (hri : ∀ (k : Fin K) (q : D.contr.Idx), (q ⟨0, by omega⟩).val = k.val → D.rhsIdx j q = ri k) :
    FloatOps.matmul D prec lhs rhs (constant (F := Ideal) so .f32 0x00000000#32) j = ∑ k : Fin K, lhs (li k) * rhs (ri k) := by
  rw [Ideal.matmul_constant_zero_apply, ← Equiv.sum_comp (contrEquiv1 D K hr hs).symm]
  refine Finset.sum_congr rfl fun k _ => ?_
  have hk := contrEquiv1_symm_val D K hr hs k
  rw [hl k _ hk, hri k _ hk]

end Cert.Lib.TrailingSplit

end
-- ==== Proof.LibTrailingUnit.lean ====
/-
  A trailing unit axis, read at an index given by coordinates.

  A shape cast keeps the row-major position of an element, and a broadcast reads coordinate 0 on each unit axis of its
  operand. So an `[a, b]` array cast to `[a, b, 1]` reads, at `(i, j, u)`, the operand at `(i, j)` (both sit at position
  `i * b + j`, the unit coordinate being 0), and an `[a, b, 1]` array stretched to `[a, b, c]` reads, at `(i, j, k)`, the
  operand at `(i, j, 0)`: each entry repeated along the new last axis. (What `x[:, :, None]` against `x[:, None, :]` needs
  of an outer comparison of a row with itself.)
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Lib.TrailingUnit
-- ==== Proof.PayAttend.lean ====
/-
  The attention kernel's stored value, read at an entry.

  The block holds two heads. Each head's query rows are the first 64 of the 192 columns of its [512, 192] slab,
  its key rows columns 64..127 and its value rows columns 128..191 of the [2048, 192] slab. A head's scores are
  the query rows against the key rows (a product contracting the 64 columns, per head) times the word
  0x3E000000; each score row is shifted by its maximum (a fold of max from -∞ over the 2048 keys),
  exponentiated, and divided by its sum; the result multiplies the value rows (contracting the 2048 keys).
  The heads are then laid side by side: entry (r, p·64 + d) of the [512, 128] result is head p's row r, column d.
  On the extended reals the roundings to the narrow format are the identity.
-/
import proofs.«165242_j64871186039330_2_alg».proof.Proof.Gen.KernelIdeal.Skeleton
import proofs.«165242_j64871186039330_2_alg».proof.Proof.Spec
import proofs.«165242_j64871186039330_2_alg».proof.Proof.LibTrailingSplit
import proofs.«165242_j64871186039330_2_alg».proof.Proof.LibTrailingUnit
import Idealize.ShloMosaic.Lib.ValueLayout
import Idealize.ShloMosaic.Lib.Pipeline.Value

noncomputable section

namespace Cert.KernelIdeal.Pay

open Idealize.ShloMosaic Idealize.ShloMosaic.ValueIdx Idealize.SL.Sem
open Cert.KernelIdeal Cert.KernelIdeal.Gen

/-! ## Layout steps -/

/-- A rank-3 array cut along its last axis from o reads, at (a, b, j), the source at (a, b, k) with k = o + j. -/
theorem slice3_last_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A stack of a matrices of shape [b, c] with the two leading axes swapped reads, at (j, i, e), the operand at
    (i, j, e). -/
theorem transpose_ix3_102_apply {α : Type} {a b c : ℕ} (x : (⟨3, ![a, b, c]⟩ : Shape).Idx → α)
    (h : (⟨3, ![a, b, c]⟩ : Shape).Transposes [1, 0, 2] ⟨3, ![b, a, c]⟩) (j : Fin b) (i : Fin a) (e : Fin c) :
    transpose ⟨3, ![b, a, c]⟩ [1, 0, 2] x h (ix3 j i e) = x (ix3 i j e) :=
  transpose_apply _ x h _ _ fun ax => match ax with | ⟨0, _⟩ => rfl | ⟨1, _⟩ => rfl | ⟨2, _⟩ => rfl

/-- A per-row quantity [2, 512] given a trailing unit axis and stretched over the 2048 keys reads, at (p, r, k),
    the quantity at (p, r). -/
theorem keep_apply (X : FVec Ideal S2x512 .f32) (hc : S2x512.ShapeCasts S2x512x1)
    (hb : S2x512x1.Broadcasts S2x512x2048) (p : Fin 2) (r : Fin 512) (k : Fin 2048) :
    broadcastTo S2x512x2048 (shapeCast S2x512x1 X hc) hb (ix3 p r k) = X (ix2 p r) :=
  (Cert.Lib.TrailingUnit.broadcastTo_ab1_abc_apply _ hb p r k).trans
    (Cert.Lib.TrailingUnit.shapeCast_ab_ab1_apply X hc p r 0)

/-! ## The blocks of the computation -/

/-- The scaled scores of the two heads: query rows against key rows, times the word 0x3E000000. -/
def scoresB (Q : FVec Ideal S2x512x64 .bf16) (Kk : FVec Ideal S2x2048x64 .bf16) : FVec Ideal S2x512x2048 .f32 :=
  mulf (matmul dot_S2x512x64_S2x2048x64_S2x512x2048_2_2_1_1_0_0 none Q Kk (constant S2x512x2048 .f32 0x00000000#32))
    (broadcast S2x512x2048 (Scalar.ofBits .f32 0x3E000000#32))

/-- The scores shifted by each row's maximum, exponentiated. -/
def expB (S : FVec Ideal S2x512x2048 .f32) : FVec Ideal S2x512x2048 .f32 :=
  exp (subf S (broadcastTo S2x512x2048
    (shapeCast S2x512x1 (multiReduction .maximumf [2] S2x512 S 0xFF800000#32 reduces_S2x512x2048_S2x512 (.inl rfl) rfl)
      shapeCasts_S2x512_S2x512x1) broadcasts_S2x512x1_S2x512x2048))

/-- Each row divided by its sum. -/
def probsB (E : FVec Ideal S2x512x2048 .f32) : FVec Ideal S2x512x2048 .bf16 :=
  truncf .bf16 (divf E (broadcastTo S2x512x2048
    (shapeCast S2x512x1 (multiReduction .add [2] S2x512 E 0x00000000#32 reduces_S2x512x2048_S2x512 (.inl rfl) rfl)
      shapeCasts_S2x512_S2x512x1) broadcasts_S2x512x1_S2x512x2048)) bitsLt_bf16_f32

/-- The weights against the value rows, the heads laid side by side. -/
def outB (P : FVec Ideal S2x512x2048 .bf16) (V : FVec Ideal S2x2048x64 .bf16) : FVec Ideal S1x512x128 .bf16 :=
  shapeCast S1x512x128 (shapeCast S512x128 (transpose S512x2x64 [1, 0, 2]
    (truncf .bf16 (matmul dot_S2x512x2048_S2x2048x64_S2x512x64_2_1_1_2_0_0 none P V (constant S2x512x64 .f32 0x00000000#32))
      bitsLt_bf16_f32) transposes_S2x512x64_p1_0_2_S512x2x64) shapeCasts_S512x2x64_S512x128) shapeCasts_S512x128_S1x512x128

/-- The stored value is the four blocks composed on the three column ranges of the two slabs. -/
theorem k1_pay1_eq (q : Vec Ideal S1x2x512x192 .bf16) (kv : Vec Ideal S1x2x2048x192 .bf16) :
    k1_pay1 (F := Ideal) q kv
      = outB (probsB (expB (scoresB
          (extractStridedSlice S2x512x64 ![0, 0, 0] (shapeCast S2x512x192 q shapeCasts_S1x2x512x192_S2x512x192)
            slices_S2x512x192_o0_0_0_S2x512x64)
          (extractStridedSlice S2x2048x64 ![0, 0, 64] (shapeCast S2x2048x192 kv shapeCasts_S1x2x2048x192_S2x2048x192)
            slices_S2x2048x192_o0_0_64_S2x2048x64))))
          (extractStridedSlice S2x2048x64 ![0, 0, 128] (shapeCast S2x2048x192 kv shapeCasts_S1x2x2048x192_S2x2048x192)
            slices_S2x2048x192_o0_0_128_S2x2048x64) := rfl

/-! ## Each block read at an entry -/

/-- A score: the query row against the key row, scaled. -/
theorem scoresB_apply (Q : FVec Ideal S2x512x64 .bf16) (Kk : FVec Ideal S2x2048x64 .bf16)
    (p : Fin 2) (r : Fin 512) (k : Fin 2048) :
    scoresB Q Kk (ix3 p r k) = (∑ d : Fin 64, Q (ix3 p r d) * Kk (ix3 p k d)) * Ideal.ofBits .f32 0x3E000000#32 := by
  unfold scoresB
  refine (mulf_apply _ _ _).trans ?_
  refine congrArg (· * Ideal.ofBits .f32 0x3E000000#32) ?_
  refine Cert.Lib.TrailingSplit.matmul_zero_sum dot_S2x512x64_S2x2048x64_S2x512x2048_2_2_1_1_0_0 64 rfl rfl none Q Kk
    (ix3 p r k) (fun d => ix3 p r d) (fun d => ix3 p k d) (fun d q hq => ?_) (fun d q hq => ?_)
  · refine funext fun a => Fin.ext ?_
    match a with
    | ⟨0, _⟩ => rfl
    | ⟨1, _⟩ => rfl
    | ⟨2, _⟩ => exact (DotDims.lhsIdx_val_of_single _ rfl _ q).trans hq
  · refine funext fun a => Fin.ext ?_
    match a with
    | ⟨0, _⟩ => rfl
    | ⟨1, _⟩ => rfl
    | ⟨2, _⟩ => exact (DotDims.rhsIdx_val_of_single _ rfl _ q).trans hq

/-- A shifted exponential: the score minus its row's maximum, exponentiated. -/
theorem expB_apply (S : FVec Ideal S2x512x2048 .f32) (p : Fin 2) (r : Fin 512) (k : Fin 2048) :
    expB S (ix3 p r k) = Ideal.exp (S (ix3 p r k) - Cert.Spec.rowMax (fun j => S (ix3 p r j))) := by
  unfold expB
  refine congrArg Ideal.exp ?_
  refine (subf_apply _ _ _).trans ?_
  refine congrArg (S (ix3 p r k) - ·) ?_
  refine (keep_apply _ _ _ p r k).trans ?_
  exact Cert.Lib.TrailingSplit.rowMax_last_apply S 0xFF800000#32 reduces_S2x512x2048_S2x512 (.inl rfl) rfl p r

/-- A weight: the entry over its row's sum. -/
theorem probsB_apply (E : FVec Ideal S2x512x2048 .f32) (p : Fin 2) (r : Fin 512) (k : Fin 2048) :
    probsB E (ix3 p r k) = Ideal.div (E (ix3 p r k)) (∑ j : Fin 2048, E (ix3 p r j)) := by
  unfold probsB
  refine (divf_apply _ _ _).trans ?_
  refine congrArg (Ideal.div (E (ix3 p r k))) ?_
  refine (keep_apply _ _ _ p r k).trans ?_
  exact Cert.Lib.TrailingSplit.rowSum_last_apply E 0x00000000#32 reduces_S2x512x2048_S2x512 (.inl rfl) rfl p r

/-- An output entry: head p's weights of row r against column d of its value rows. -/
theorem outB_apply (P : FVec Ideal S2x512x2048 .bf16) (V : FVec Ideal S2x2048x64 .bf16)
    (r : Fin 512) (p : Fin 2) (d : Fin 64) :
    outB P V (ix3 (0 : Fin 1) r ⟨p.val * 64 + d.val, by omega⟩) = ∑ k : Fin 2048, P (ix3 p r k) * V (ix3 p k d) := by
  unfold outB
  refine (shapeCast_ab_1ab_apply _ _ (0 : Fin 1) r _).trans ?_
  refine (Cert.Lib.TrailingSplit.shapeCast_mab_mn_apply (by norm_num : 128 = 2 * 64) _ _ r p d _ rfl).trans ?_
  refine (transpose_ix3_102_apply _ _ r p d).trans ?_
  refine Cert.Lib.TrailingSplit.matmul_zero_sum dot_S2x512x2048_S2x2048x64_S2x512x64_2_1_1_2_0_0 2048 rfl rfl none P V
    (ix3 p r d) (fun k => ix3 p r k) (fun k => ix3 p k d) (fun k q hq => ?_) (fun k q hq => ?_)
  · refine funext fun a => Fin.ext ?_
    match a with
    | ⟨0, _⟩ => rfl
    | ⟨1, _⟩ => rfl
    | ⟨2, _⟩ => exact (DotDims.lhsIdx_val_of_single _ rfl _ q).trans hq
  · refine funext fun a => Fin.ext ?_
    match a with
    | ⟨0, _⟩ => rfl
    | ⟨1, _⟩ => exact (DotDims.rhsIdx_val_of_single _ rfl _ q).trans hq
    | ⟨2, _⟩ => rfl

/-! ## The stored value -/

/-- The attention kernel's stored value at entry (0, r, p·64 + d): head p's output for query row r, column d. -/
theorem pay1_apply (q : Vec Ideal S1x2x512x192 .bf16) (kv : Vec Ideal S1x2x2048x192 .bf16)
    (r : Fin 512) (p : Fin 2) (d : Fin 64) :
    k1_pay1 (F := Ideal) q kv (ix3 (0 : Fin 1) r ⟨p.val * 64 + d.val, by omega⟩)
      = Cert.Spec.headOut (fun d' => q (ix4 (0 : Fin 1) p r ⟨d'.val, by omega⟩))
          (fun k d' => kv (ix4 (0 : Fin 1) p k ⟨64 + d'.val, by omega⟩))
          (fun k => kv (ix4 (0 : Fin 1) p k ⟨128 + d.val, by omega⟩)) := by
  rw [k1_pay1_eq]
  refine (outB_apply _ _ r p d).trans ?_
  unfold Cert.Spec.headOut Cert.Spec.attend
  -- the three column ranges at an entry
  have hQ : ∀ d' : Fin 64, extractStridedSlice S2x512x64 ![0, 0, 0] (shapeCast S2x512x192 q shapeCasts_S1x2x512x192_S2x512x192)
      slices_S2x512x192_o0_0_0_S2x512x64 (ix3 p r d') = q (ix4 (0 : Fin 1) p r ⟨d'.val, by omega⟩) := fun d' =>
    (slice3_last_apply (n2 := 192) 0 (shapeCast S2x512x192 q shapeCasts_S1x2x512x192_S2x512x192) slices_S2x512x192_o0_0_0_S2x512x64 p r d' ⟨d'.val, by omega⟩ (Nat.zero_add _).symm).trans
      (shapeCast_1abc_abc_apply q _ p r _)
  have hK : ∀ (k : Fin 2048) (d' : Fin 64), extractStridedSlice S2x2048x64 ![0, 0, 64]
      (shapeCast S2x2048x192 kv shapeCasts_S1x2x2048x192_S2x2048x192) slices_S2x2048x192_o0_0_64_S2x2048x64 (ix3 p k d')
        = kv (ix4 (0 : Fin 1) p k ⟨64 + d'.val, by omega⟩) := fun k d' =>
    (slice3_last_apply (n2 := 192) 64 (shapeCast S2x2048x192 kv shapeCasts_S1x2x2048x192_S2x2048x192) slices_S2x2048x192_o0_0_64_S2x2048x64 p k d' ⟨64 + d'.val, by omega⟩ rfl).trans (shapeCast_1abc_abc_apply kv _ p k _)
  have hV : ∀ k : Fin 2048, extractStridedSlice S2x2048x64 ![0, 0, 128]
      (shapeCast S2x2048x192 kv shapeCasts_S1x2x2048x192_S2x2048x192) slices_S2x2048x192_o0_0_128_S2x2048x64 (ix3 p k d)
        = kv (ix4 (0 : Fin 1) p k ⟨128 + d.val, by omega⟩) := fun k =>
    (slice3_last_apply (n2 := 192) 128 (shapeCast S2x2048x192 kv shapeCasts_S1x2x2048x192_S2x2048x192) slices_S2x2048x192_o0_0_128_S2x2048x64 p k d ⟨128 + d.val, by omega⟩ rfl).trans (shapeCast_1abc_abc_apply kv _ p k _)
  -- a score row of the kernel is the specification's
  have hS : ∀ k : Fin 2048, scoresB
      (extractStridedSlice S2x512x64 ![0, 0, 0] (shapeCast S2x512x192 q shapeCasts_S1x2x512x192_S2x512x192)
        slices_S2x512x192_o0_0_0_S2x512x64)
      (extractStridedSlice S2x2048x64 ![0, 0, 64] (shapeCast S2x2048x192 kv shapeCasts_S1x2x2048x192_S2x2048x192)
        slices_S2x2048x192_o0_0_64_S2x2048x64) (ix3 p r k)
      = (∑ d' : Fin 64, q (ix4 (0 : Fin 1) p r ⟨d'.val, by omega⟩) * kv (ix4 (0 : Fin 1) p k ⟨64 + d'.val, by omega⟩))
          * Ideal.ofBits .f32 0x3E000000#32 := fun k =>
    (scoresB_apply _ _ p r k).trans (congrArg (· * Ideal.ofBits .f32 0x3E000000#32)
      (Finset.sum_congr rfl fun d' _ => congrArg₂ (· * ·) (hQ d') (hK k d')))
  refine Finset.sum_congr rfl fun k _ => ?_
  refine congrArg₂ (· * ·) ?_ (hV k)
  refine (probsB_apply _ p r k).trans ?_
  have hE : ∀ j : Fin 2048, expB (scoresB
      (extractStridedSlice S2x512x64 ![0, 0, 0] (shapeCast S2x512x192 q shapeCasts_S1x2x512x192_S2x512x192)
        slices_S2x512x192_o0_0_0_S2x512x64)
      (extractStridedSlice S2x2048x64 ![0, 0, 64] (shapeCast S2x2048x192 kv shapeCasts_S1x2x2048x192_S2x2048x192)
        slices_S2x2048x192_o0_0_64_S2x2048x64)) (ix3 p r j)
      = Ideal.exp ((∑ d' : Fin 64, q (ix4 (0 : Fin 1) p r ⟨d'.val, by omega⟩) * kv (ix4 (0 : Fin 1) p j ⟨64 + d'.val, by omega⟩))
          * Ideal.ofBits .f32 0x3E000000#32
        - Cert.Spec.rowMax (fun j' => (∑ d' : Fin 64, q (ix4 (0 : Fin 1) p r ⟨d'.val, by omega⟩) * kv (ix4 (0 : Fin 1) p j' ⟨64 + d'.val, by omega⟩))
          * Ideal.ofBits .f32 0x3E000000#32)) := fun j =>
    (expB_apply _ p r j).trans (congrArg Ideal.exp (congrArg₂ (· - ·) (hS j) (congrArg Cert.Spec.rowMax (funext hS))))
  exact congrArg₂ Ideal.div (hE k) (Finset.sum_congr rfl fun j _ => hE j)

end Cert.KernelIdeal.Pay

end
-- ==== Proof.IdealFinal1.lean ====
/-
  Region 1, from blocks to the array: after the 64 grid points the context array holds, entry by entry, each
  head's attention output. The grid point (b, g, qi) takes query rows 512·qi .. 512·qi + 511 of heads 2g and 2g + 1
  of batch b, and all 2048 key and value rows of the same two heads, and writes rows 512·qi .. of columns
  128·g .. 128·g + 127 of batch b: column 128·g + 64·p + d is head 2g + p, lane d.
-/
import proofs.«165242_j64871186039330_2_alg».proof.Proof.IdealRegion1
import proofs.«165242_j64871186039330_2_alg».proof.Proof.PayAttend
import proofs.«165242_j64871186039330_2_alg».proof.Proof.SpecArrays
import Idealize.ShloMosaic.Lib.Pipeline.Value

noncomputable section

namespace Cert.KernelIdeal.Val

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1_4 : (![0, 0, 0, 0] : Fin 4 → Nat) = fun _ => 0 := funext fun a => by fin_cases a <;> rfl
theorem hz1_3 : (![0, 0, 0] : Fin 3 → Nat) = fun _ => 0 := funext fun a => by fin_cases a <;> rfl

/-- The printed index maps over the grid: the query block sits at the output block's batch, head pair and row block;
    the key and value block at the same batch and head pair, all rows; the ranges of the output's block indices. -/
theorem idx_facts1 : ∀ t : Fin cfg1.N, win1_0.index t (0 : Fin 4) = win1_2.index t (0 : Fin 3)
    ∧ win1_0.index t (1 : Fin 4) = win1_2.index t (2 : Fin 3)
    ∧ win1_0.index t (2 : Fin 4) = win1_2.index t (1 : Fin 3)
    ∧ win1_0.index t (3 : Fin 4) = 0
    ∧ win1_1.index t (0 : Fin 4) = win1_2.index t (0 : Fin 3)
    ∧ win1_1.index t (1 : Fin 4) = win1_2.index t (2 : Fin 3)
    ∧ win1_1.index t (2 : Fin 4) = 0
    ∧ win1_1.index t (3 : Fin 4) = 0
    ∧ win1_2.index t (0 : Fin 3) < 2 ∧ win1_2.index t (1 : Fin 3) < 4 ∧ win1_2.index t (2 : Fin 3) < 8 :=
  (by decide +kernel : ∀ t : Fin grid1.N, _)

/-- Every block of the context array is some point's. -/
theorem idx_onto1 : ∀ (q0 : Fin 2) (q1 : Fin 4) (q2 : Fin 8), ∃ t : Fin cfg1.N, win1_2.index t = ![q0.val, q1.val, q2.val] :=
  (by decide +kernel : ∀ (q0 : Fin 2) (q1 : Fin 4) (q2 : Fin 8), ∃ t : Fin grid1.N, win1_2.index t = ![q0.val, q1.val, q2.val])

/-- The query block at a point, head p of the pair, row r: the projected rows at the point's batch, head 2g + p,
    row 512·qi + r. -/
theorem blk1_0 (c : Dev nD) (t : Fin cfg1.N) (p : Fin 2) (r : Fin 512) (e : Fin 192) (B : Fin 2) (H : Fin 16) (R : Fin 2048)
    (hB : B.val = win1_2.index t (0 : Fin 3)) (hH : H.val = win1_2.index t (2 : Fin 3) * 2 + p.val)
    (hR : R.val = win1_2.index t (1 : Fin 3) * 512 + r.val) :
    iblk1 V c 0 t (ix4 (0 : Fin 1) p r e) = V c main_v2 (ix4 B H R e) := by
  obtain ⟨e0, e1, e2, e3, e4, e5, e6, e7, e8, e9, e10⟩ := idx_facts1 t
  show V c main_v2 (((cfg1.win 0).blk t).view.emb (ix4 (0 : Fin 1) p r e)) = _
  refine congrArg (V c main_v2) (funext fun a => Fin.ext ?_)
  match a with
  | ⟨0, _⟩ => show win1_0.index t (0 : Fin 4) * 1 + 1 * 0 = B.val; omega
  | ⟨1, _⟩ => show win1_0.index t (1 : Fin 4) * 2 + 1 * p.val = H.val; omega
  | ⟨2, _⟩ => show win1_0.index t (2 : Fin 4) * 512 + 1 * r.val = R.val; omega
  | ⟨3, _⟩ => show win1_0.index t (3 : Fin 4) * 192 + 1 * e.val = e.val; omega

/-- The key and value block at a point, head p of the pair, row k: the projected rows at the point's batch, head
    2g + p, row k. -/
theorem blk1_1 (c : Dev nD) (t : Fin cfg1.N) (p : Fin 2) (k : Fin 2048) (e : Fin 192) (B : Fin 2) (H : Fin 16)
    (hB : B.val = win1_2.index t (0 : Fin 3)) (hH : H.val = win1_2.index t (2 : Fin 3) * 2 + p.val) :
    iblk1 V c 1 t (ix4 (0 : Fin 1) p k e) = V c main_v2 (ix4 B H k e) := by
  obtain ⟨e0, e1, e2, e3, e4, e5, e6, e7, e8, e9, e10⟩ := idx_facts1 t
  show V c main_v2 (((cfg1.win 1).blk t).view.emb (ix4 (0 : Fin 1) p k e)) = _
  refine congrArg (V c main_v2) (funext fun a => Fin.ext ?_)
  match a with
  | ⟨0, _⟩ => show win1_1.index t (0 : Fin 4) * 1 + 1 * 0 = B.val; omega
  | ⟨1, _⟩ => show win1_1.index t (1 : Fin 4) * 2 + 1 * p.val = H.val; omega
  | ⟨2, _⟩ => show win1_1.index t (2 : Fin 4) * 2048 + 1 * k.val = k.val; omega
  | ⟨3, _⟩ => show win1_1.index t (3 : Fin 4) * 192 + 1 * e.val = e.val; omega

/-- The output block at a point, entry (0, r, x): entry (b, 512·qi + r, 128·g + x) of the context array. -/
theorem emb1_2 (t : Fin cfg1.N) (r : Fin 512) (x : Fin 128) (B : Fin 2) (R : Fin 2048) (E : Fin 1024)
    (hB : B.val = win1_2.index t (0 : Fin 3)) (hR : R.val = win1_2.index t (1 : Fin 3) * 512 + r.val)
    (hE : E.val = win1_2.index t (2 : Fin 3) * 128 + x.val) :
    ((cfg1.win 2).blk t).view.emb (ix3 (0 : Fin 1) r x) = ix3 B R E := by
  refine funext fun a => Fin.ext ?_
  match a with
  | ⟨0, _⟩ => show win1_2.index t (0 : Fin 3) * 1 + 1 * 0 = B.val; omega
  | ⟨1, _⟩ => show win1_2.index t (1 : Fin 3) * 512 + 1 * r.val = R.val; omega
  | ⟨2, _⟩ => show win1_2.index t (2 : Fin 3) * 128 + 1 * x.val = E.val; omega

/-- A column of the 128 is a head of the pair and a lane of the 64. -/
theorem split128 (x : Fin 128) : ∃ (p : Fin 2) (d : Fin 64), x = ⟨p.val * 64 + d.val, by omega⟩ :=
  ⟨⟨x.val / 64, by omega⟩, ⟨x.val % 64, by omega⟩, Fin.ext (by show x.val = x.val / 64 * 64 + x.val % 64; omega)⟩

/-- What a point writes back is its block of the context of the projected rows as the region finds them. -/
theorem flushed1_eq (c : Dev nD) (t : Fin cfg1.N) :
    (dat1 V c).flushed 2 t = ((cfg1.win 2).blk t).view.read (Elt Ideal) (Cert.Spec.context (V c main_v2)) := by
  show (cfg1.win 2).cut (grid1.coords t) ((dat1 V c).after 2 t) = _
  rw [after1_2]
  unfold out1_2
  rw [View.canon_unit_zero hz1_3]
  simp only [View.ld_unit_zero (S := S1x2x512x192) hz1_4, View.ld_unit_zero (S := S1x2x2048x192) hz1_4]
  funext j
  obtain ⟨e0, e1, e2, e3, e4, e5, e6, e7, e8, e9, e10⟩ := idx_facts1 t
  revert j
  show ∀ j : S1x512x128.Idx, k1_pay1 (F := Ideal) (iblk1 V c 0 t) (iblk1 V c 1 t) j
    = Cert.Spec.context (V c main_v2) (((cfg1.win 2).blk t).view.emb j)
  intro j
  obtain ⟨u, r, x, rfl⟩ : ∃ (u : Fin 1) (r : Fin 512) (x : Fin 128), j = ix3 u r x := ⟨j 0, j 1, j 2, eq_ix3 j⟩
  obtain rfl : u = 0 := Subsingleton.elim _ _
  obtain ⟨p, d, rfl⟩ := split128 x
  have hr : r.val < 512 := r.isLt
  have hp : p.val < 2 := p.isLt
  have hd : d.val < 64 := d.isLt
  rw [emb1_2 t r ⟨p.val * 64 + d.val, by omega⟩ ⟨win1_2.index t (0 : Fin 3), e8⟩
    ⟨win1_2.index t (1 : Fin 3) * 512 + r.val, by omega⟩
    ⟨win1_2.index t (2 : Fin 3) * 128 + (p.val * 64 + d.val), by omega⟩ rfl rfl rfl]
  refine (pay1_apply _ _ r p d).trans ?_
  have hh : Cert.Spec.headOf ⟨win1_2.index t (2 : Fin 3) * 128 + (p.val * 64 + d.val), by omega⟩
      = (⟨win1_2.index t (2 : Fin 3) * 2 + p.val, by omega⟩ : Fin 16) :=
    Fin.ext (by show (win1_2.index t (2 : Fin 3) * 128 + (p.val * 64 + d.val)) / 64 = win1_2.index t (2 : Fin 3) * 2 + p.val; omega)
  have hv : Cert.Spec.vLane ⟨win1_2.index t (2 : Fin 3) * 128 + (p.val * 64 + d.val), by omega⟩
      = (⟨128 + d.val, by omega⟩ : Fin 192) :=
    Fin.ext (by show 128 + (win1_2.index t (2 : Fin 3) * 128 + (p.val * 64 + d.val)) % 64 = 128 + d.val; omega)
  show _ = Cert.Spec.headOut
    (fun d' => V c main_v2 (ix4 (⟨win1_2.index t (0 : Fin 3), e8⟩ : Fin 2)
      (Cert.Spec.headOf ⟨win1_2.index t (2 : Fin 3) * 128 + (p.val * 64 + d.val), by omega⟩)
      (⟨win1_2.index t (1 : Fin 3) * 512 + r.val, by omega⟩ : Fin 2048) (Cert.Spec.qLane d')))
    (fun k d' => V c main_v2 (ix4 (⟨win1_2.index t (0 : Fin 3), e8⟩ : Fin 2)
      (Cert.Spec.headOf ⟨win1_2.index t (2 : Fin 3) * 128 + (p.val * 64 + d.val), by omega⟩) k (Cert.Spec.kLane d')))
    (fun k => V c main_v2 (ix4 (⟨win1_2.index t (0 : Fin 3), e8⟩ : Fin 2)
      (Cert.Spec.headOf ⟨win1_2.index t (2 : Fin 3) * 128 + (p.val * 64 + d.val), by omega⟩) k
      (Cert.Spec.vLane ⟨win1_2.index t (2 : Fin 3) * 128 + (p.val * 64 + d.val), by omega⟩)))
  rw [hh, hv]
  refine congr (congr (congrArg Cert.Spec.headOut (funext fun d' => ?_)) (funext fun k => funext fun d' => ?_))
    (funext fun k => ?_)
  · exact blk1_0 V c t p r _ _ _ _ rfl rfl rfl
  · exact blk1_1 V c t p k _ _ _ rfl rfl
  · exact blk1_1 V c t p k _ _ _ rfl rfl

/-- An index of the array is in a point's block iff each coordinate is in the block's range on its axis. -/
theorem mem_blk1 (t : Fin cfg1.N) (i : S2x2048x1024.Idx) :
    i ∈ ((cfg1.win 2).blk t).view.set ↔ ∀ a : Fin 3, win1_2.index t a * S1x512x128.size a ≤ (i a).val
      ∧ (i a).val < win1_2.index t a * S1x512x128.size a + S1x512x128.size a := by
  show i ∈ ((View.whole main_v3).slice (win1_2.rect t)).set ↔ _
  rw [View.set_slice_whole, Rect.mem_set_unit]
  exact Iff.rfl

/-- Every index of the context array is in some point's block: batch b, row block i / 512, column block e / 128. -/
theorem cover1 (i : S2x2048x1024.Idx) :
    ∃ t : Fin cfg1.N, (cfg1.win 2).flush t = true ∧ i ∈ ((cfg1.win 2).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, by omega⟩ ⟨(i 1).val / 512, by omega⟩ ⟨(i 2).val / 128, by omega⟩
  have q0 : win1_2.index t (0 : Fin 3) = (i 0).val := congrFun ht 0
  have q1 : win1_2.index t (1 : Fin 3) = (i 1).val / 512 := congrFun ht 1
  have q2 : win1_2.index t (2 : Fin 3) = (i 2).val / 128 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 128 ≤ (i 2).val ∧ (i 2).val < win1_2.index t (2 : Fin 3) * 128 + 128; omega

/-- The context array after the region: each head's attention output, from the projected rows as the region finds
    them. -/
theorem final1 (c : Dev nD) : (dat1 (F := Ideal) V c).arrAt 2 cfg1.N = Cert.Spec.context (V c main_v2) :=
  (dat1 V c).arrAt_eq_of_cover 2 (Cert.Spec.context (V c main_v2)) (fun t _ => flushed1_eq V c t) (fun i => cover1 i)

end Cert.KernelIdeal.Val

end
-- ==== Proof.IdealFinal2.lean ====
/-
  Region 2, from blocks to the array: after the eight grid points the output array holds, entry by entry, the
  linear layer of the input rows. Point t writes rows 512·t .. 512·t + 511; its input block is the same rows of
  the input, and the weight matrix and the bias are read whole.
-/
import proofs.«165242_j64871186039330_2_alg».proof.Proof.IdealRegion2
import proofs.«165242_j64871186039330_2_alg».proof.Proof.PayLinear
import proofs.«165242_j64871186039330_2_alg».proof.Proof.SpecArrays
import Idealize.ShloMosaic.Lib.Pipeline.Value

noncomputable section

namespace Cert.KernelIdeal.Val

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl
theorem hz2_1 : (![0] : Fin 1 → Nat) = fun _ => 0 := funext fun a => by fin_cases a <;> rfl

/-- The printed index maps over the grid: the input block moves with the output block along the rows, every other
    block index is 0, and the output's row block at point t is t. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0
    ∧ win2_3.index t (0 : Fin 2) = t.val ∧ t.val < 8 :=
  (by decide +kernel : ∀ t : Fin grid2.N, _)

/-- Every row block is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- The input block at point t, row r, is row 512·t + r of the input. -/
theorem blk2_0 (c : Dev nD) (t : Fin cfg2.N) (r : Fin 512) (k : Fin 1024) (q : Fin 4096)
    (hq : q.val = t.val * 512 + r.val) : iblk2 V c 0 t (ix2 r k) = V c main_v4 (ix2 q k) := by
  obtain ⟨e0, e1, e2, e3, e4, e5, e6, e7⟩ := idx_facts2 t
  show V c main_v4 (((cfg2.win 0).blk t).view.emb (ix2 r k)) = _
  refine congrArg (V c main_v4) (funext fun a => Fin.ext ?_)
  match a with
  | ⟨0, _⟩ => show win2_0.index t (0 : Fin 2) * 512 + 1 * r.val = q.val; omega
  | ⟨1, _⟩ => show win2_0.index t (1 : Fin 2) * 1024 + 1 * k.val = k.val; omega

/-- The weight block is the weight matrix. -/
theorem blk2_1 (c : Dev nD) (t : Fin cfg2.N) (n : Fin 1024) (k : Fin 1024) :
    iblk2 V c 1 t (ix2 n k) = V c main_arg3 (ix2 n k) := by
  obtain ⟨e0, e1, e2, e3, e4, e5, e6, e7⟩ := idx_facts2 t
  show V c main_arg3 (((cfg2.win 1).blk t).view.emb (ix2 n k)) = _
  refine congrArg (V c main_arg3) (funext fun a => Fin.ext ?_)
  match a with
  | ⟨0, _⟩ => show win2_1.index t (0 : Fin 2) * 1024 + 1 * n.val = n.val; omega
  | ⟨1, _⟩ => show win2_1.index t (1 : Fin 2) * 1024 + 1 * k.val = k.val; omega

/-- The bias block is the bias vector. -/
theorem blk2_2 (c : Dev nD) (t : Fin cfg2.N) (n : Fin 1024) :
    iblk2 V c 2 t (ix1 n) = V c main_arg4 (ix1 n) := by
  obtain ⟨e0, e1, e2, e3, e4, e5, e6, e7⟩ := idx_facts2 t
  show V c main_arg4 (((cfg2.win 2).blk t).view.emb (ix1 n)) = _
  refine congrArg (V c main_arg4) (funext fun a => Fin.ext ?_)
  match a with
  | ⟨0, _⟩ => show win2_2.index t (0 : Fin 1) * 1024 + 1 * n.val = n.val; omega

/-- The output block at point t, entry (r, n), is entry (512·t + r, n) of the output array. -/
theorem emb2_3 (t : Fin cfg2.N) (r : Fin 512) (n : Fin 1024) (q : Fin 4096) (hq : q.val = t.val * 512 + r.val) :
    ((cfg2.win 3).blk t).view.emb (ix2 r n) = ix2 q n := by
  obtain ⟨e0, e1, e2, e3, e4, e5, e6, e7⟩ := idx_facts2 t
  refine funext fun a => Fin.ext ?_
  match a with
  | ⟨0, _⟩ => show win2_3.index t (0 : Fin 2) * 512 + 1 * r.val = q.val; omega
  | ⟨1, _⟩ => show win2_3.index t (1 : Fin 2) * 1024 + 1 * n.val = n.val; omega

/-- What point t writes back is block t of the linear layer of the arrays as the region finds them. -/
theorem flushed2_eq (c : Dev nD) (t : Fin cfg2.N) :
    (dat2 V c).flushed 3 t = ((cfg2.win 3).blk t).view.read (Elt Ideal)
      (Cert.Spec.linearRows (V c main_v4) (V c main_arg3) (V c main_arg4)) := by
  show (cfg2.win 3).cut (grid2.coords t) ((dat2 V c).after 3 t) = _
  rw [after2_3]
  unfold out2_3
  rw [View.canon_unit_zero hz2_2]
  simp only [View.ld_unit_zero (S := S512x1024) hz2_2, View.ld_unit_zero (S := S1024x1024) hz2_2,
    View.ld_unit_zero (S := S1024) hz2_1]
  funext j
  obtain ⟨e0, e1, e2, e3, e4, e5, e6, e7⟩ := idx_facts2 t
  revert j
  show ∀ j : S512x1024.Idx, k2_pay1 (F := Ideal) (iblk2 V c 0 t) (iblk2 V c 1 t) (iblk2 V c 2 t) j
    = Cert.Spec.linearRows (V c main_v4) (V c main_arg3) (V c main_arg4) (((cfg2.win 3).blk t).view.emb j)
  intro j
  obtain ⟨r, n, rfl⟩ : ∃ (r : Fin 512) (n : Fin 1024), j = ix2 r n := ⟨j 0, j 1, eq_ix2 j⟩
  have hr : r.val < 512 := r.isLt
  rw [emb2_3 t r n ⟨t.val * 512 + r.val, by omega⟩ rfl]
  refine (pay2_apply _ _ _ r n).trans ?_
  show _ = Cert.Spec.affine (fun k => V c main_v4 (ix2 (⟨t.val * 512 + r.val, by omega⟩ : Fin 4096) k))
    (fun k => V c main_arg3 (ix2 n k)) (V c main_arg4 (ix1 n))
  refine congr (congrArg₂ Cert.Spec.affine (funext fun k => blk2_0 V c t r k _ rfl) (funext fun k => blk2_1 V c t n k)) (blk2_2 V c t n)

/-- An index of the array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v5).slice (win2_3.rect t)).set ↔ _
  rw [View.set_slice_whole, Rect.mem_set_unit]
  exact Iff.rfl

/-- Every index of the output array is in some point's block: row i is in block i / 512. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the region: the linear layer of the input rows, the weight matrix and the bias as the
    region finds them. -/
theorem final2 (c : Dev nD) :
    (dat2 (F := Ideal) V c).arrAt 3 cfg2.N = Cert.Spec.linearRows (V c main_v4) (V c main_arg3) (V c main_arg4) :=
  (dat2 V c).arrAt_eq_of_cover 3 (Cert.Spec.linearRows (V c main_v4) (V c main_arg3) (V c main_arg4))
    (fun t _ => flushed2_eq V c t) (fun i => cover2 i)

end Cert.KernelIdeal.Val

end
-- ==== Proof.IdealValue.lean ====
/-
  What the kernel's program returns, at the extended reals: following the boundary contents from the launch memory, the
  result array is the output linear layer of the (reshaped) context, the context the attention of the (reshaped) projected
  rows, and those the first linear layer of the (reshaped) input.
-/
import proofs.«165242_j64871186039330_2_alg».proof.Proof.Gen.KernelIdeal.Launch
import proofs.«165242_j64871186039330_2_alg».proof.Proof.Gen.KernelIdeal.Skeleton
import proofs.«165242_j64871186039330_2_alg».proof.Proof.Gen.KernelIdeal.Points
import proofs.«165242_j64871186039330_2_alg».proof.Proof.IdealFrame
import proofs.«165242_j64871186039330_2_alg».proof.Proof.IdealFinal0
import proofs.«165242_j64871186039330_2_alg».proof.Proof.IdealFinal1
import proofs.«165242_j64871186039330_2_alg».proof.Proof.IdealFinal2
import proofs.«165242_j64871186039330_2_alg».proof.Proof.SpecArrays
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The reshapes -/

theorem W1_v0 (c : Dev nD) : W1 m ρ c (Proc.devRef .tc main_v0)
    = shapeCast S4096x1024 (m ((c : Thread nD τ).loc main_arg0)) shapeCasts_S2x2048x1024_S4096x1024 := by
  dsimp only [W1, hostOps0]; after_results; rfl
theorem W3_v2 (c : Dev nD) : W3 m ρ c (Proc.devRef .tc main_v2)
    = shapeCast S2x16x2048x192 (W2 m ρ c (Proc.devRef .tc main_v1)) shapeCasts_S4096x3072_S2x16x2048x192 := by
  dsimp only [W3, hostOps1]; after_results; rfl
theorem W5_v4 (c : Dev nD) : W5 m ρ c (Proc.devRef .tc main_v4)
    = shapeCast S4096x1024 (W4 m ρ c (Proc.devRef .tc main_v3)) shapeCasts_S2x2048x1024_S4096x1024 := by
  dsimp only [W5, hostOps2]; after_results; rfl
theorem W7_v6 (c : Dev nD) : W7 m ρ c (Proc.devRef .tc main_v6)
    = shapeCast S2x2048x1024 (W6 m ρ c (Proc.devRef .tc main_v5)) shapeCasts_S4096x1024_S2x2048x1024 := by
  dsimp only [W7, hostOps3]; after_results; rfl

/-! ## The weights and biases as each region finds them -/

theorem V1_arg1 (c : Dev nD) : V1 m ρ c main_arg1 = m ((c : Thread nD τ).loc main_arg1) := W1_of m ρ c main_arg1 (by decide)
theorem V1_arg2 (c : Dev nD) : V1 m ρ c main_arg2 = m ((c : Thread nD τ).loc main_arg2) := W1_of m ρ c main_arg2 (by decide)
theorem V5_arg3 (c : Dev nD) : V5 m ρ c main_arg3 = m ((c : Thread nD τ).loc main_arg3) :=
  (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl
theorem V5_arg4 (c : Dev nD) : V5 m ρ c main_arg4 = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl

/-! ## The regions' results -/

theorem W2_v1 (c : Dev nD) : W2 m ρ c (Proc.devRef .tc main_v1)
    = Cert.Spec.linearRows (W1 m ρ c (Proc.devRef .tc main_v0)) (m ((c : Thread nD τ).loc main_arg1)) (m ((c : Thread nD τ).loc main_arg2)) :=
  (W2_arr m ρ c 3).trans ((Cert.KernelIdeal.Val.final0 (V1 m ρ) c).trans (by rw [V1_arg1, V1_arg2]))
theorem W4_v3 (c : Dev nD) : W4 m ρ c (Proc.devRef .tc main_v3) = Cert.Spec.context (W3 m ρ c (Proc.devRef .tc main_v2)) :=
  (W4_out m ρ c).trans (Cert.KernelIdeal.Val.final1 (V3 m ρ) c)
theorem W6_v5 (c : Dev nD) : W6 m ρ c (Proc.devRef .tc main_v5)
    = Cert.Spec.linearRows (W5 m ρ c (Proc.devRef .tc main_v4)) (m ((c : Thread nD τ).loc main_arg3)) (m ((c : Thread nD τ).loc main_arg4)) :=
  (W6_arr m ρ c 3).trans ((Cert.KernelIdeal.Val.final2 (V5 m ρ) c).trans (by rw [V5_arg3, V5_arg4]))

/-- The program's result as one function of the argument arrays: the three stages with the reshapes between them. -/
def result (a0 : (⟨S2x2048x1024, .f32⟩ : BufTy).Contents (Elt Ideal)) (a1 : (⟨S3072x1024, .f32⟩ : BufTy).Contents (Elt Ideal))
    (a2 : (⟨S3072, .f32⟩ : BufTy).Contents (Elt Ideal)) (a3 : (⟨S1024x1024, .f32⟩ : BufTy).Contents (Elt Ideal))
    (a4 : (⟨S1024, .f32⟩ : BufTy).Contents (Elt Ideal)) : (⟨S2x2048x1024, .f32⟩ : BufTy).Contents (Elt Ideal) :=
  shapeCast S2x2048x1024 (Cert.Spec.linearRows (shapeCast S4096x1024 (Cert.Spec.context (shapeCast S2x16x2048x192
    (Cert.Spec.linearRows (shapeCast S4096x1024 a0 shapeCasts_S2x2048x1024_S4096x1024) a1 a2) shapeCasts_S4096x3072_S2x16x2048x192))
    shapeCasts_S2x2048x1024_S4096x1024) a3 a4) shapeCasts_S4096x1024_S2x2048x1024

/-- The result array at the end of the run is `result` of the launch contents of the arguments. -/
theorem W7_result (c : Dev nD) : W7 m ρ c (Proc.devRef .tc main_v6)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  rw [W7_v6, W6_v5, W5_v4, W4_v3, W3_v2, W2_v1, W1_v0]
  rfl

/-- THE VALUE RUN: every weakly fair execution of the program terminates, nothing faulting, with the result array at
    `result` of the arguments and the arguments as launched. -/
theorem value : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v6 (by decide))).trans (W7_result m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩)
    (run_all m ρ)

end Cert.KernelIdeal.Hand

end
-- ==== Proof.RefReadA.lean ====
/-
  The reference program read at an index: the two linear layers.
  An element of the fused projection is the input row against the weight row plus the bias;
  an element of the output is the context row against the output weight row plus the bias.
-/
import proofs.«165242_j64871186039330_2_alg».proof.Proof.Gen.ReferenceIdeal.Read
import proofs.«165242_j64871186039330_2_alg».proof.Proof.Spec

noncomputable section

namespace Cert.ReferenceIdeal.RefValue

open Cert.ReferenceIdeal Idealize.ShloMosaic Idealize.ShloMosaic.ValueIdx

/-! ## Index equations: the operand indices of the two contractions and of the bias broadcasts -/

theorem lidx_v0_eq (b : Fin 2) (s : Fin 2048) (f : Fin 3072) (k : Fin 1024) :
    Read.lidx_main_v0 (ix3 b s f) k = ix3 b s k :=
  funext fun a => Fin.ext (by match a with | ⟨0, _⟩ => rfl | ⟨1, _⟩ => rfl | ⟨2, _⟩ => rfl)

theorem ridx_v0_eq (b : Fin 2) (s : Fin 2048) (f : Fin 3072) (k : Fin 1024) :
    Read.ridx_main_v0 (ix3 b s f) k = ix2 f k :=
  funext fun a => Fin.ext (by match a with | ⟨0, _⟩ => rfl | ⟨1, _⟩ => rfl)

theorem idx_v1_v2_eq (b : Fin 2) (s : Fin 2048) (f : Fin 3072) :
    Read.idx_main_v1 (Read.idx_main_v2 (ix3 b s f)) = ix1 f :=
  funext fun a => Fin.ext (by match a with | ⟨0, _⟩ => rfl)

theorem lidx_v25_eq (b : Fin 2) (s : Fin 2048) (f : Fin 1024) (k : Fin 1024) :
    Read.lidx_main_v25 (ix3 b s f) k = ix3 b s k :=
  funext fun a => Fin.ext (by match a with | ⟨0, _⟩ => rfl | ⟨1, _⟩ => rfl | ⟨2, _⟩ => rfl)

theorem ridx_v25_eq (b : Fin 2) (s : Fin 2048) (f : Fin 1024) (k : Fin 1024) :
    Read.ridx_main_v25 (ix3 b s f) k = ix2 f k :=
  funext fun a => Fin.ext (by match a with | ⟨0, _⟩ => rfl | ⟨1, _⟩ => rfl)

theorem idx_v26_v27_eq (b : Fin 2) (s : Fin 2048) (f : Fin 1024) :
    Read.idx_main_v26 (Read.idx_main_v27 (ix3 b s f)) = ix1 f :=
  funext fun a => Fin.ext (by match a with | ⟨0, _⟩ => rfl)

/-! ## The two linear layers -/

/-- An element of the fused projection: the input row against the weight row, plus the bias. -/
theorem qkv_apply (x0 : (⟨S2x2048x1024, .f32⟩ : BufTy).Contents (Elt Ideal))
    (x1 : (⟨S3072x1024, .f32⟩ : BufTy).Contents (Elt Ideal)) (x2 : (⟨S3072, .f32⟩ : BufTy).Contents (Elt Ideal))
    (b : Fin 2) (s : Fin 2048) (f : Fin 3072) :
    Read.val_main_v3 (F := Ideal) x0 x1 x2 (ix3 b s f)
      = Cert.Spec.affine (fun k => x0 (ix3 b s k)) (fun k => x1 (ix2 f k)) (x2 (ix1 f)) := by
  rw [Read.val_main_v3_apply, Read.val_main_v0_apply, Read.val_main_v2_apply, Read.val_main_v1_apply,
    idx_v1_v2_eq]
  simp only [lidx_v0_eq, ridx_v0_eq, Ideal.addf_def]
  rfl

/-- An element of the output: the context row against the output weight row, plus the bias. -/
theorem out_apply (x0 : (⟨S2x2048x1024, .f32⟩ : BufTy).Contents (Elt Ideal))
    (x1 : (⟨S3072x1024, .f32⟩ : BufTy).Contents (Elt Ideal)) (x2 : (⟨S3072, .f32⟩ : BufTy).Contents (Elt Ideal))
    (x3 : (⟨S1024x1024, .f32⟩ : BufTy).Contents (Elt Ideal)) (x4 : (⟨S1024, .f32⟩ : BufTy).Contents (Elt Ideal))
    (b : Fin 2) (s : Fin 2048) (f : Fin 1024) :
    Read.val_main_v28 (F := Ideal) x0 x1 x2 x3 x4 (ix3 b s f)
      = Cert.Spec.affine (fun k => Read.val_main_v24 (F := Ideal) x0 x1 x2 (ix3 b s k)) (fun k => x3 (ix2 f k)) (x4 (ix1 f)) := by
  rw [Read.val_main_v28_apply, Read.val_main_v25_apply, Read.val_main_v27_apply, Read.val_main_v26_apply,
    idx_v26_v27_eq]
  generalize Read.val_main_v24 (F := Ideal) x0 x1 x2 = C
  simp only [lidx_v25_eq, ridx_v25_eq, Ideal.addf_def]
  rfl

end Cert.ReferenceIdeal.RefValue

end
-- ==== Proof.RefReadB.lean ====
/-
  The reference program read at an index: one element of the attention context.
  For batch b, head h, query row i and column d the context is the softmax over the keys k of the scaled
  scores (the query row against key row k, times 1/8), applied to column d of the value rows.
  The program divides the scores by 8 where the specification multiplies by 1/8 (equal on every extended
  real), takes the maximum once more against -∞ (the identity), and starts its sum from the zero word.
-/
import proofs.«165242_j64871186039330_2_alg».proof.Proof.Gen.ReferenceIdeal.Read
import proofs.«165242_j64871186039330_2_alg».proof.Proof.Spec
import Idealize.ShloMosaic.PureOps.Reduce

noncomputable section

namespace Cert.ReferenceIdeal.RefValue

open Cert.ReferenceIdeal Idealize.ShloMosaic Idealize.ShloMosaic.ValueIdx

/-! ## The constants -/

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The word 0xFF800000 denotes -∞. -/
theorem ofBits_negInf : Ideal.ofBits .f32 0xFF800000#32 = ⊥ := by
  simp [Ideal.ofBits, Ideal.ieee]

/-- Dividing by 8 is multiplying by 1/8, on every extended real. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The maximum against -∞ is the identity. -/
theorem max_negInf (x : EReal) : max (Ideal.ofBits .f32 0xFF800000#32) x = x := by
  rw [ofBits_negInf]; exact max_bot_left x

/-! ## Index equations -/

section Indices
variable (b : Fin 2) (h : Fin 16) (i k : Fin 2048) (d d' : Fin 64)

/-- Column h·64+d of the flattened context row is column d of head h (the reshape and the transpose). -/
theorem idx_v24_v23_eq :
    Read.idx_main_v23 (Read.idx_main_v24 (ix3 b i (⟨h.val * 64 + d.val, by omega⟩ : Fin 1024))) = ix4 b h i d := by
  have hb := b.isLt; have hh := h.isLt; have hi := i.isLt; have hd := d.isLt
  funext a; apply Fin.ext
  match a with
  | ⟨0, _⟩ => show ((b.val * 2048 + i.val) * 1024 + (h.val * 64 + d.val)) / 2097152 = b.val; omega
  | ⟨1, _⟩ => show ((b.val * 2048 + i.val) * 1024 + (h.val * 64 + d.val)) / 64 % 16 = h.val; omega
  | ⟨2, _⟩ => show ((b.val * 2048 + i.val) * 1024 + (h.val * 64 + d.val)) / 1024 % 2048 = i.val; omega
  | ⟨3, _⟩ => show ((b.val * 2048 + i.val) * 1024 + (h.val * 64 + d.val)) % 64 = d.val; omega

theorem lidx_v22_eq : Read.lidx_main_v22 (ix4 b h i d) k = ix4 b h i k :=
  funext fun a => Fin.ext (by match a with | ⟨0, _⟩ => rfl | ⟨1, _⟩ => rfl | ⟨2, _⟩ => rfl | ⟨3, _⟩ => rfl)

theorem ridx_v22_eq : Read.ridx_main_v22 (ix4 b h i d) k = ix4 b h k d :=
  funext fun a => Fin.ext (by match a with | ⟨0, _⟩ => rfl | ⟨1, _⟩ => rfl | ⟨2, _⟩ => rfl | ⟨3, _⟩ => rfl)

theorem idx_v7_eq : Read.idx_main_v7 (ix4 b h k d) = ix4 b h k (⟨128 + d.val, by omega⟩ : Fin 192) :=
  funext fun a => Fin.ext (by match a with | ⟨0, _⟩ => rfl | ⟨1, _⟩ => rfl | ⟨2, _⟩ => rfl | ⟨3, _⟩ => rfl)

theorem idx_v6_eq : Read.idx_main_v6 (ix4 b h k d') = ix4 b h k (⟨64 + d'.val, by omega⟩ : Fin 192) :=
  funext fun a => Fin.ext (by match a with | ⟨0, _⟩ => rfl | ⟨1, _⟩ => rfl | ⟨2, _⟩ => rfl | ⟨3, _⟩ => rfl)

theorem idx_v5_eq : Read.idx_main_v5 (ix4 b h i d') = ix4 b h i (⟨d'.val, by omega⟩ : Fin 192) :=
  funext fun a => Fin.ext (by match a with | ⟨0, _⟩ => rfl | ⟨1, _⟩ => rfl | ⟨2, _⟩ => rfl | ⟨3, _⟩ => rfl)

theorem lidx_v8_eq : Read.lidx_main_v8 (ix4 b h i k) d' = ix4 b h i d' :=
  funext fun a => Fin.ext (by match a with | ⟨0, _⟩ => rfl | ⟨1, _⟩ => rfl | ⟨2, _⟩ => rfl | ⟨3, _⟩ => rfl)

theorem ridx_v8_eq : Read.ridx_main_v8 (ix4 b h i k) d' = ix4 b h k d' :=
  funext fun a => Fin.ext (by match a with | ⟨0, _⟩ => rfl | ⟨1, _⟩ => rfl | ⟨2, _⟩ => rfl | ⟨3, _⟩ => rfl)

theorem idx_v15_v14_eq : Read.idx_main_v14 (Read.idx_main_v15 (ix4 b h i k)) = ix3 b h i :=
  funext fun a => Fin.ext (by match a with | ⟨0, _⟩ => rfl | ⟨1, _⟩ => rfl | ⟨2, _⟩ => rfl)

theorem idx_v20_v19_eq : Read.idx_main_v19 (Read.idx_main_v20 (ix4 b h i k)) = ix3 b h i :=
  funext fun a => Fin.ext (by match a with | ⟨0, _⟩ => rfl | ⟨1, _⟩ => rfl | ⟨2, _⟩ => rfl)

theorem idx_v18_eq : Read.idx_main_v18 (ix3 b h i) k = ix4 b h i k :=
  funext fun a => Fin.ext (by match a with | ⟨0, _⟩ => rfl | ⟨1, _⟩ => rfl | ⟨2, _⟩ => rfl | ⟨3, _⟩ => rfl)

end Indices

/-! ## The operations of one attention row -/

section Row
variable (x0 : (⟨S2x2048x1024, .f32⟩ : BufTy).Contents (Elt Ideal))
  (x1 : (⟨S3072x1024, .f32⟩ : BufTy).Contents (Elt Ideal)) (x2 : (⟨S3072, .f32⟩ : BufTy).Contents (Elt Ideal))
  (b : Fin 2) (h : Fin 16) (i k : Fin 2048) (d : Fin 64)

/-- A scaled score: the query row against key row k, times 1/8. -/
theorem scores_apply :
    Read.val_main_v10 (F := Ideal) x0 x1 x2 (ix4 b h i k)
      = (∑ d' : Fin 64, Read.val_main_v4 (F := Ideal) x0 x1 x2 (ix4 b h i (⟨d'.val, by omega⟩ : Fin 192))
            * Read.val_main_v4 (F := Ideal) x0 x1 x2 (ix4 b h k (⟨64 + d'.val, by omega⟩ : Fin 192)))
          * Ideal.ofBits .f32 0x3E000000#32 := by
  rw [Read.val_main_v10_apply, Read.val_main_v8_apply, Read.val_main_v9_apply, Read.val_main_cst_apply,
    Ideal.hostDivf_def, Ideal.ofBits_def, div_eight]
  refine congrArg (· * _) (Finset.sum_congr rfl fun d' _ => ?_)
  rw [lidx_v8_eq, ridx_v8_eq, Read.val_main_v5_apply, Read.val_main_v6_apply, idx_v5_eq, idx_v6_eq]

/-- The reduced axis is the last one: a reduced index with coordinate k put back. -/
theorem lift_eq (hR : S2x16x2048x2048.Reduces [3] S2x16x2048) (k' : Fin (S2x16x2048x2048.size 3)) :
    hR.lift (ix3 b h i) k' = ix4 b h i (⟨k'.val, k'.isLt⟩ : Fin 2048) := by
  funext c; apply Fin.ext
  match c with
  | ⟨0, _⟩ => rfl
  | ⟨1, _⟩ => rfl
  | ⟨2, _⟩ => rfl
  | ⟨3, _⟩ => rfl

/-- A reduce with a maximum body over the last axis is, at (b, h, i), the fold of max over that row. -/
theorem hostMax_apply (Y : S2x16x2048x2048.Idx → Ideal .f32) (init : S_.Idx → Ideal .f32)
    (h' : S2x16x2048x2048.ReducesTo [3] S2x16x2048) (hu : 0 < S_.numel) :
    Host.reduce (FloatOps.maximumf (F := Ideal) (φ := .f32)) Y init h' hu (ix3 b h i)
      = (Finset.univ : Finset (Fin 2048)).fold max (init (Shape.Idx.first hu)) (fun k : Fin 2048 => Y (ix4 b h i k)) := by
  have hR : S2x16x2048x2048.Reduces [3] S2x16x2048 := by decide
  refine (Host.reduce_eq_fold_single (FloatOps.maximumf (F := Ideal) (φ := .f32)) Y init h' hR hu (ix3 b h i)).trans ?_
  have hf : (Y ∘ hR.lift (ix3 b h i)) = fun k : Fin 2048 => Y (ix4 b h i k) :=
    funext fun k' => congrArg Y (lift_eq b h i hR k')
  exact congrArg (fun f => Finset.fold max (init (Shape.Idx.first hu)) f (Finset.univ : Finset (Fin 2048))) hf

/-- The row maximum: the program's reduce from -∞, and its second maximum against -∞. -/
theorem rowMax_apply :
    Read.val_main_v13 (F := Ideal) x0 x1 x2 (ix3 b h i)
      = Cert.Spec.rowMax (fun k : Fin 2048 => Read.val_main_v10 (F := Ideal) x0 x1 x2 (ix4 b h i k)) := by
  rw [Read.val_main_v13_apply, Read.val_main_v12_apply, Read.val_main_cst_1_apply, Ideal.maximumf_def,
    Ideal.ofBits_def, max_negInf]
  unfold Read.val_main_v11
  generalize Read.val_main_v10 (F := Ideal) x0 x1 x2 = Y
  refine (hostMax_apply b h i Y _ _ _).trans ?_
  unfold Cert.Spec.rowMax
  rw [Read.val_main_cst_0_apply, Ideal.ofBits_def]

end Row

section Row2
variable (x0 : (⟨S2x2048x1024, .f32⟩ : BufTy).Contents (Elt Ideal))
  (x1 : (⟨S3072x1024, .f32⟩ : BufTy).Contents (Elt Ideal)) (x2 : (⟨S3072, .f32⟩ : BufTy).Contents (Elt Ideal))
  (b : Fin 2) (h : Fin 16) (i k : Fin 2048) (d : Fin 64)

/-- The exponential of a score less the row maximum. -/
theorem exp_apply :
    Read.val_main_v17 (F := Ideal) x0 x1 x2 (ix4 b h i k)
      = Ideal.exp (Read.val_main_v10 (F := Ideal) x0 x1 x2 (ix4 b h i k)
          - Read.val_main_v13 (F := Ideal) x0 x1 x2 (ix3 b h i)) := by
  rw [Read.val_main_v17_apply, Read.val_main_v16_apply, Read.val_main_v15_apply, Read.val_main_v14_apply,
    idx_v15_v14_eq, Ideal.hostUnary_exp_def, Ideal.subf_def]

/-- The row sum of the exponentials: the program's sum from the zero word. -/
theorem rowSum_apply :
    Read.val_main_v18 (F := Ideal) x0 x1 x2 (ix3 b h i)
      = ∑ k : Fin 2048, Read.val_main_v17 (F := Ideal) x0 x1 x2 (ix4 b h i k) := by
  rw [Read.val_main_v18_apply, Read.val_main_cst_2_apply, Ideal.ofBits_def, Ideal.ofBits_zero_f32, zero_add]
  exact Finset.sum_congr rfl fun k _ => by rw [idx_v18_eq]

/-- A softmax weight: the exponential over the row sum. -/
theorem weight_apply :
    Read.val_main_v21 (F := Ideal) x0 x1 x2 (ix4 b h i k)
      = Ideal.div (Read.val_main_v17 (F := Ideal) x0 x1 x2 (ix4 b h i k))
          (Read.val_main_v18 (F := Ideal) x0 x1 x2 (ix3 b h i)) := by
  rw [Read.val_main_v21_apply, Read.val_main_v20_apply, Read.val_main_v19_apply, idx_v20_v19_eq,
    Ideal.hostDivf_def]

/-- The weighted sum of column d of the value rows. -/
theorem weighted_apply :
    Read.val_main_v22 (F := Ideal) x0 x1 x2 (ix4 b h i d)
      = ∑ k : Fin 2048, Read.val_main_v21 (F := Ideal) x0 x1 x2 (ix4 b h i k)
          * Read.val_main_v4 (F := Ideal) x0 x1 x2 (ix4 b h k (⟨128 + d.val, by omega⟩ : Fin 192)) := by
  rw [Read.val_main_v22_apply]
  refine Finset.sum_congr rfl fun k _ => ?_
  rw [lidx_v22_eq, ridx_v22_eq, Read.val_main_v7_apply, idx_v7_eq]

/-- The weighted sum is the softmax of the row's scores applied to the value column. -/
theorem attend_apply :
    Read.val_main_v22 (F := Ideal) x0 x1 x2 (ix4 b h i d)
      = Cert.Spec.attend (fun k : Fin 2048 => Read.val_main_v10 (F := Ideal) x0 x1 x2 (ix4 b h i k))
          (fun k : Fin 2048 => Read.val_main_v4 (F := Ideal) x0 x1 x2 (ix4 b h k (⟨128 + d.val, by omega⟩ : Fin 192))) := by
  rw [weighted_apply]
  have hsum : (∑ j : Fin 2048, Read.val_main_v17 (F := Ideal) x0 x1 x2 (ix4 b h i j))
      = ∑ j : Fin 2048, Ideal.exp (Read.val_main_v10 (F := Ideal) x0 x1 x2 (ix4 b h i j)
          - Cert.Spec.rowMax (fun k : Fin 2048 => Read.val_main_v10 (F := Ideal) x0 x1 x2 (ix4 b h i k))) :=
    Finset.sum_congr rfl fun j _ => by rw [exp_apply, rowMax_apply]
  simp only [Cert.Spec.attend]
  refine Finset.sum_congr rfl fun k _ => ?_
  rw [weight_apply, exp_apply, rowSum_apply, rowMax_apply, hsum]

end Row2

/-! ## One element of the context -/

/-- Column h·64+d of context row i of batch b: head h's softmax over the keys of the scaled scores, applied
    to column d of the value rows; query, key and value are the three 64-column thirds of the head's 192
    columns of the reshaped projection. -/
theorem ctx_apply (x0 : (⟨S2x2048x1024, .f32⟩ : BufTy).Contents (Elt Ideal))
    (x1 : (⟨S3072x1024, .f32⟩ : BufTy).Contents (Elt Ideal)) (x2 : (⟨S3072, .f32⟩ : BufTy).Contents (Elt Ideal))
    (b : Fin 2) (i : Fin 2048) (h : Fin 16) (d : Fin 64) :
    Read.val_main_v24 (F := Ideal) x0 x1 x2 (ix3 b i (⟨h.val * 64 + d.val, by omega⟩ : Fin 1024))
      = Cert.Spec.headOut
          (fun d' => Read.val_main_v4 (F := Ideal) x0 x1 x2 (ix4 b h i (⟨d'.val, by omega⟩ : Fin 192)))
          (fun k d' => Read.val_main_v4 (F := Ideal) x0 x1 x2 (ix4 b h k (⟨64 + d'.val, by omega⟩ : Fin 192)))
          (fun k => Read.val_main_v4 (F := Ideal) x0 x1 x2 (ix4 b h k (⟨128 + d.val, by omega⟩ : Fin 192))) := by
  rw [Read.val_main_v24_apply, Read.val_main_v23_apply, idx_v24_v23_eq, attend_apply]
  have hs : (fun k : Fin 2048 => Read.val_main_v10 (F := Ideal) x0 x1 x2 (ix4 b h i k))
      = fun k : Fin 2048 =>
          (∑ d' : Fin 64, Read.val_main_v4 (F := Ideal) x0 x1 x2 (ix4 b h i (⟨d'.val, by omega⟩ : Fin 192))
            * Read.val_main_v4 (F := Ideal) x0 x1 x2 (ix4 b h k (⟨64 + d'.val, by omega⟩ : Fin 192)))
          * Ideal.ofBits .f32 0x3E000000#32 :=
    funext fun k => scores_apply x0 x1 x2 b h i k
  rw [hs]
  generalize Read.val_main_v4 (F := Ideal) x0 x1 x2 = Q4
  rfl

end Cert.ReferenceIdeal.RefValue

end
-- ==== Proof.RefReadC.lean ====
/-
  The reference program read at an index: the reshape of the fused projection into heads.
  The reshape is the row-major one: element (b, h, i, c) of the [2,16,2048,192] array is the element of
  the [2,2048,3072] projection with the same flat position ((b·16+h)·2048+i)·192+c, that is row
  h·128 + i/16 and column (i mod 16)·192 + c of batch b.
-/
import proofs.«165242_j64871186039330_2_alg».proof.Proof.Gen.ReferenceIdeal.Read

noncomputable section

namespace Cert.ReferenceIdeal.RefValue

open Cert.ReferenceIdeal Idealize.ShloMosaic Idealize.ShloMosaic.ValueIdx

/-- The flat position of (b, h, i, c) split back over [2, 2048, 3072]. -/
theorem idx_v4_eq (b : Fin 2) (h : Fin 16) (i : Fin 2048) (c : Fin 192) :
    Read.idx_main_v4 (ix4 b h i c)
      = ix3 b (⟨h.val * 128 + i.val / 16, by omega⟩ : Fin 2048) (⟨i.val % 16 * 192 + c.val, by omega⟩ : Fin 3072) := by
  have hb := b.isLt; have hh := h.isLt; have hi := i.isLt; have hc := c.isLt
  funext a; apply Fin.ext
  match a with
  | ⟨0, _⟩ => show (((b.val * 16 + h.val) * 2048 + i.val) * 192 + c.val) / 6291456 = b.val; omega
  | ⟨1, _⟩ => show (((b.val * 16 + h.val) * 2048 + i.val) * 192 + c.val) / 3072 % 2048 = h.val * 128 + i.val / 16; omega
  | ⟨2, _⟩ => show (((b.val * 16 + h.val) * 2048 + i.val) * 192 + c.val) % 3072 = i.val % 16 * 192 + c.val; omega

/-- Element (b, h, i, c) of the reshaped projection is the projection at row h·128 + i/16, column (i mod 16)·192 + c. -/
theorem heads_apply (x0 : (⟨S2x2048x1024, .f32⟩ : BufTy).Contents (Elt Ideal))
    (x1 : (⟨S3072x1024, .f32⟩ : BufTy).Contents (Elt Ideal)) (x2 : (⟨S3072, .f32⟩ : BufTy).Contents (Elt Ideal))
    (b : Fin 2) (h : Fin 16) (i : Fin 2048) (c : Fin 192) :
    Read.val_main_v4 (F := Ideal) x0 x1 x2 (ix4 b h i c)
      = Read.val_main_v3 (F := Ideal) x0 x1 x2
          (ix3 b (⟨h.val * 128 + i.val / 16, by omega⟩ : Fin 2048) (⟨i.val % 16 * 192 + c.val, by omega⟩ : Fin 3072)) := by
  rw [Read.val_main_v4_apply, idx_v4_eq]

end Cert.ReferenceIdeal.RefValue

end
-- ==== Proof.Bridge.lean ====
/-
  The composed program equals the reference's result.
  The composed program works on 4096 = 2·2048 flattened rows: a linear layer into 3072 columns, the rows
  regrouped as 2 × 16 heads of 2048 rows of 192 columns (the plain row-major regrouping), attention head by
  head, and a linear layer back to 1024 columns. Read at an index each stage is the reference's stage:
  a row-major regrouping moves an element to the index with the same flat position, so row b·2048+s of the
  flattened input is row s of batch b, and entry (b, h, i, c) of the heads is row b·2048 + h·128 + i/16,
  column (i mod 16)·192 + c of the projected rows.
-/
import proofs.«165242_j64871186039330_2_alg».proof.Proof.RefReadA
import proofs.«165242_j64871186039330_2_alg».proof.Proof.RefReadB
import proofs.«165242_j64871186039330_2_alg».proof.Proof.RefReadC
import proofs.«165242_j64871186039330_2_alg».proof.Proof.SpecArrays

noncomputable section

namespace Cert.Bridge

open Cert.ReferenceIdeal Cert.ReferenceIdeal.RefValue Idealize.ShloMosaic Idealize.ShloMosaic.ValueIdx

/-! ## The regroupings read at an index -/

/-- Row b·2048+s of the flattened rows is row s of batch b. -/
theorem rows_of_batch {α : Type} (x : (⟨3, ![2, 2048, 1024]⟩ : Shape).Idx → α)
    (hc : (⟨3, ![2, 2048, 1024]⟩ : Shape).ShapeCasts ⟨2, ![4096, 1024]⟩) (b : Fin 2) (s : Fin 2048) (k : Fin 1024) :
    shapeCast (⟨2, ![4096, 1024]⟩ : Shape) x hc (ix2 (⟨b.val * 2048 + s.val, by omega⟩ : Fin 4096) k) = x (ix3 b s k) :=
  shapeCast_apply x hc _ _ (by rewrite [Shape.rowMajor_val_three, Shape.rowMajor_val_two]; rfl)

/-- Entry (b, h, i, c) of the heads is row b·2048 + h·128 + i/16, column (i mod 16)·192 + c of the rows. -/
theorem heads_of_rows {α : Type} (P : (⟨2, ![4096, 3072]⟩ : Shape).Idx → α)
    (hc : (⟨2, ![4096, 3072]⟩ : Shape).ShapeCasts ⟨4, ![2, 16, 2048, 192]⟩)
    (b : Fin 2) (h : Fin 16) (i : Fin 2048) (c : Fin 192) :
    shapeCast (⟨4, ![2, 16, 2048, 192]⟩ : Shape) P hc (ix4 b h i c)
      = P (ix2 (⟨b.val * 2048 + (h.val * 128 + i.val / 16), by omega⟩ : Fin 4096)
            (⟨i.val % 16 * 192 + c.val, by omega⟩ : Fin 3072)) :=
  shapeCast_apply P hc _ _ (by
    rewrite [Shape.rowMajor_val_two, Shape.rowMajor_val_four]
    have hb := b.isLt; have hh := h.isLt; have hi := i.isLt; have hcc := c.isLt
    show (b.val * 2048 + (h.val * 128 + i.val / 16)) * 3072 + (i.val % 16 * 192 + c.val)
      = ((b.val * 16 + h.val) * 2048 + i.val) * 192 + c.val
    omega)

/-- Entry (b, s, f) of the regrouped output is row b·2048+s, column f of the rows. -/
theorem batch_of_rows {α : Type} (O : (⟨2, ![4096, 1024]⟩ : Shape).Idx → α)
    (hc : (⟨2, ![4096, 1024]⟩ : Shape).ShapeCasts ⟨3, ![2, 2048, 1024]⟩) (b : Fin 2) (s : Fin 2048) (f : Fin 1024) :
    shapeCast (⟨3, ![2, 2048, 1024]⟩ : Shape) O hc (ix3 b s f)
      = O (ix2 (⟨b.val * 2048 + s.val, by omega⟩ : Fin 4096) f) :=
  shapeCast_apply O hc _ _ (by rewrite [Shape.rowMajor_val_two, Shape.rowMajor_val_three]; rfl)

/-- A linear layer over rows, read at (r, c). -/
theorem linearRows_apply {n d : Nat} (x : (⟨2, ![n, 1024]⟩ : Shape).Idx → EReal)
    (w : (⟨2, ![d, 1024]⟩ : Shape).Idx → EReal) (bb : (⟨1, ![d]⟩ : Shape).Idx → EReal) (r : Fin n) (c : Fin d) :
    Cert.Spec.linearRows x w bb (ix2 r c)
      = Cert.Spec.affine (fun k => x (ix2 r k)) (fun k => w (ix2 c k)) (bb (ix1 c)) := rfl

/-! ## The three stages -/

section Stages
variable (x0 : (⟨S2x2048x1024, .f32⟩ : BufTy).Contents (Elt Ideal))
  (x1 : (⟨S3072x1024, .f32⟩ : BufTy).Contents (Elt Ideal)) (x2 : (⟨S3072, .f32⟩ : BufTy).Contents (Elt Ideal))
  (x3 : (⟨S1024x1024, .f32⟩ : BufTy).Contents (Elt Ideal)) (x4 : (⟨S1024, .f32⟩ : BufTy).Contents (Elt Ideal))

/-- The projected rows, regrouped into heads, are the reference's regrouped projection. -/
theorem projected_eq (h1 : (⟨3, ![2, 2048, 1024]⟩ : Shape).ShapeCasts ⟨2, ![4096, 1024]⟩)
    (h2 : (⟨2, ![4096, 3072]⟩ : Shape).ShapeCasts ⟨4, ![2, 16, 2048, 192]⟩) :
    shapeCast (⟨4, ![2, 16, 2048, 192]⟩ : Shape)
        (Cert.Spec.linearRows (shapeCast (⟨2, ![4096, 1024]⟩ : Shape) x0 h1) x1 x2) h2
      = Read.val_main_v4 (F := Ideal) x0 x1 x2 := by
  funext j
  obtain ⟨b, h, i, c, rfl⟩ : ∃ (b : Fin 2) (h : Fin 16) (i : Fin 2048) (c : Fin 192), j = ix4 b h i c :=
    ⟨j 0, j 1, j 2, j 3, eq_ix4 j⟩
  rw [heads_of_rows, linearRows_apply, heads_apply, qkv_apply]
  refine congrArg (fun g => Cert.Spec.affine g _ _) (funext fun k => ?_)
  exact rows_of_batch x0 h1 b (⟨h.val * 128 + i.val / 16, by omega⟩ : Fin 2048) k

/-- The context of the reference's heads is the reference's context. -/
theorem context_eq :
    Cert.Spec.context (Read.val_main_v4 (F := Ideal) x0 x1 x2) = Read.val_main_v24 (F := Ideal) x0 x1 x2 := by
  funext j
  obtain ⟨b, i, e, rfl⟩ : ∃ (b : Fin 2) (i : Fin 2048) (e : Fin 1024), j = ix3 b i e := ⟨j 0, j 1, j 2, eq_ix3 j⟩
  obtain ⟨h, d, rfl⟩ : ∃ (h : Fin 16) (d : Fin 64), e = (⟨h.val * 64 + d.val, by omega⟩ : Fin 1024) :=
    ⟨⟨e.val / 64, by omega⟩, ⟨e.val % 64, by omega⟩, Fin.ext (by show e.val = e.val / 64 * 64 + e.val % 64; omega)⟩
  rw [ctx_apply]
  generalize Read.val_main_v4 (F := Ideal) x0 x1 x2 = Q4
  have e1 : Cert.Spec.headOf (⟨h.val * 64 + d.val, by omega⟩ : Fin 1024) = h :=
    Fin.ext (by show (h.val * 64 + d.val) / 64 = h.val; omega)
  have e2 : Cert.Spec.vLane (⟨h.val * 64 + d.val, by omega⟩ : Fin 1024) = (⟨128 + d.val, by omega⟩ : Fin 192) :=
    Fin.ext (by show 128 + (h.val * 64 + d.val) % 64 = 128 + d.val; omega)
  show Cert.Spec.headOut
      (fun d' => Q4 (ix4 b (Cert.Spec.headOf (⟨h.val * 64 + d.val, by omega⟩ : Fin 1024)) i (Cert.Spec.qLane d')))
      (fun k d' => Q4 (ix4 b (Cert.Spec.headOf (⟨h.val * 64 + d.val, by omega⟩ : Fin 1024)) k (Cert.Spec.kLane d')))
      (fun k => Q4 (ix4 b (Cert.Spec.headOf (⟨h.val * 64 + d.val, by omega⟩ : Fin 1024)) k
        (Cert.Spec.vLane (⟨h.val * 64 + d.val, by omega⟩ : Fin 1024)))) = _
  rw [e1, e2]
  rfl

/-- The output rows of the reference's context, regrouped, are the reference's result. -/
theorem output_eq (h3 : (⟨3, ![2, 2048, 1024]⟩ : Shape).ShapeCasts ⟨2, ![4096, 1024]⟩)
    (h4 : (⟨2, ![4096, 1024]⟩ : Shape).ShapeCasts ⟨3, ![2, 2048, 1024]⟩) :
    shapeCast (⟨3, ![2, 2048, 1024]⟩ : Shape)
        (Cert.Spec.linearRows (shapeCast (⟨2, ![4096, 1024]⟩ : Shape) (Read.val_main_v24 (F := Ideal) x0 x1 x2) h3) x3 x4) h4
      = Read.val_main_v28 (F := Ideal) x0 x1 x2 x3 x4 := by
  funext j
  obtain ⟨b, s, f, rfl⟩ : ∃ (b : Fin 2) (s : Fin 2048) (f : Fin 1024), j = ix3 b s f := ⟨j 0, j 1, j 2, eq_ix3 j⟩
  rw [batch_of_rows, linearRows_apply, out_apply]
  generalize Read.val_main_v24 (F := Ideal) x0 x1 x2 = C
  refine congrArg (fun g => Cert.Spec.affine g _ _) (funext fun k => ?_)
  exact rows_of_batch C h3 b s k

end Stages

/-! ## The composed program -/

/-- The composed program, as one function of the five argument arrays, is the reference's result. -/
theorem kernel_eq_reference (h1 : (⟨3, ![2, 2048, 1024]⟩ : Shape).ShapeCasts ⟨2, ![4096, 1024]⟩)
    (h2 : (⟨2, ![4096, 3072]⟩ : Shape).ShapeCasts ⟨4, ![2, 16, 2048, 192]⟩)
    (h3 : (⟨3, ![2, 2048, 1024]⟩ : Shape).ShapeCasts ⟨2, ![4096, 1024]⟩)
    (h4 : (⟨2, ![4096, 1024]⟩ : Shape).ShapeCasts ⟨3, ![2, 2048, 1024]⟩)
    (x0 : (⟨S2x2048x1024, .f32⟩ : BufTy).Contents (Elt Ideal))
    (x1 : (⟨S3072x1024, .f32⟩ : BufTy).Contents (Elt Ideal)) (x2 : (⟨S3072, .f32⟩ : BufTy).Contents (Elt Ideal))
    (x3 : (⟨S1024x1024, .f32⟩ : BufTy).Contents (Elt Ideal)) (x4 : (⟨S1024, .f32⟩ : BufTy).Contents (Elt Ideal)) :
    shapeCast (⟨3, ![2, 2048, 1024]⟩ : Shape)
        (Cert.Spec.linearRows
          (shapeCast (⟨2, ![4096, 1024]⟩ : Shape)
            (Cert.Spec.context
              (shapeCast (⟨4, ![2, 16, 2048, 192]⟩ : Shape)
                (Cert.Spec.linearRows (shapeCast (⟨2, ![4096, 1024]⟩ : Shape) x0 h1) x1 x2) h2)) h3) x3 x4) h4
      = Read.val_main_v28 (F := Ideal) x0 x1 x2 x3 x4 := by
  rw [projected_eq x0 x1 x2 h1 h2, context_eq x0 x1 x2]
  exact output_eq x0 x1 x2 x3 x4 h3 h4

end Cert.Bridge

end
-- ==== Proof.lean ====
/-
  The certificate: the kernel (a linear layer, attention over pairs of heads, a second linear layer, as three
  pipelined regions between reshapes) against the reference (the same three stages as whole-array operations).

  Frames. The kernel's program, at the word level and at the extended reals, runs its seven segments in order; no
  reshape writes an argument and a region only reads one through an input window, so the arguments end as launched.
  The reference is a straight line of host operations; its frame is its run with the result dropped.

  Values, at the extended reals. Each region's output array is one function of the arrays it reads: the first
  linear layer of the reshaped input, the attention of the reshaped projected rows, head by head
  (softmax of the scaled dot products of a query row with the key rows, applied to the value rows), the second linear layer of
  the reshaped context. The reference computes the same three functions: its reshapes are the same row-major ones, a
  host dot product is the same sum as a matrix product into a zero accumulator, its division of the scores by 8 is the
  product with 1/8 on every extended real, and its extra maximum with -∞ is the identity. Changes of float format are
  the identity, so the kernel's narrow intermediates change nothing. No law used needs the inputs finite.
-/
import proofs.«165242_j64871186039330_2_alg».proof.Defs
import proofs.«165242_j64871186039330_2_alg».proof.Proof.Gen.Kernel
import proofs.«165242_j64871186039330_2_alg».proof.Proof.Gen.KernelIdeal
import proofs.«165242_j64871186039330_2_alg».proof.Proof.Gen.ReferenceIdeal
import proofs.«165242_j64871186039330_2_alg».proof.Proof.Gen.ReferenceIdeal.Run
import proofs.«165242_j64871186039330_2_alg».proof.Proof.Gen.ReferenceIdeal.Read
import proofs.«165242_j64871186039330_2_alg».proof.Proof.Gen.Pre_finite_inputs
import proofs.«165242_j64871186039330_2_alg».proof.Proof.BitsFrame
import proofs.«165242_j64871186039330_2_alg».proof.Proof.IdealFrame
import proofs.«165242_j64871186039330_2_alg».proof.Proof.IdealValue
import proofs.«165242_j64871186039330_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program, word level: it runs and its arguments end unchanged. -/
theorem frame_k : Cert.frame_Kernel := fun m ρ _ => Cert.Kernel.Hand.frame m ρ
/-- The same at the extended reals. -/
theorem frame_ki : Cert.frame_KernelIdeal := fun m ρ _ => Cert.KernelIdeal.Hand.frame m ρ
/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the extended reals the kernel's result is the three stages composed (the value run) and the reference's is its
    operations' term of arguments that agree: one function of the arguments. -/
theorem algebraic : Cert.algebraic_KernelIdeal_ReferenceIdeal := by
  intro m ρ m' ρ' _ hagree
  refine ⟨_, Cert.KernelIdeal.Hand.value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1, (hagree c).2.2.2.2]
  exact (Cert.Bridge.kernel_eq_reference _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
